-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x64 : Shape := ⟨2, ![4096, 64]⟩
abbrev S64x3 : Shape := ⟨2, ![64, 3]⟩
abbrev S6x1 : Shape := ⟨2, ![6, 1]⟩
abbrev S100x12288 : Shape := ⟨2, ![100, 12288]⟩
abbrev S100 : Shape := ⟨1, ![100]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S64x3 : S_.BroadcastsInDim S64x3 (![] : Fin 0 → Fin S64x3.rank)
  reducesTo_S64x3_S_d0_1 : S64x3.ReducesTo [0, 1] S_
  bcast_S_S6x1 : S_.BroadcastsInDim S6x1 (![] : Fin 0 → Fin S6x1.rank)
  reducesTo_S6x1_S_d0_1 : S6x1.ReducesTo [0, 1] S_
  bcast_S_S100x12288 : S_.BroadcastsInDim S100x12288 (![] : Fin 0 → Fin S100x12288.rank)
  reducesTo_S100x12288_S_d0_1 : S100x12288.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg5 : FVec F S100 .f32) (main_v13 : IVec S_ 1) (main_v16 : IVec S100x12288 1) : IVec S_ 1 :=
  let main_c_5 : IVec S_ 1 := constantI S_ 1 1#1
  let main_v17 : IVec S_ 1 := (fun x v => Host.reduce IntOp.andi x v reducesTo_S100x12288_S_d0_1 h_S_) main_v16 main_c_5
  let main_v18 : IVec S_ 1 := andi main_v13 main_v17
  let main_v19 : FVec F S100 .f32 := Host.absf main_arg5
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  main_v23

def fn {F : FTy → Type} [FloatOps F] (main_arg0 : IVec S4x4096x4096 32) (main_arg1 : FVec F S4096x64 .f32) (main_arg2 : FVec F S64x3 .f32) (main_arg3 : FVec F S6x1 .f32) (main_arg4 : FVec F S100x12288 .f32) (main_arg5 : FVec F S100 .f32) : IVec S_ 1 :=
  let main_v0 : FVec F S4096x64 .f32 := Host.absf main_arg1
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S64x3 .f32 := Host.absf main_arg2
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S6x1 .f32 := Host.absf main_arg3
  let main_cst_2 : FVec F S_ .f32 := constant S_ .f32 0x7F800000#32
  let main_v10 : FVec F S6x1 .f32 := broadcastInDim S6x1 ![] bcast_S_S6x1 main_cst_2
  let main_v11 : IVec S6x1 1 := cmpf .olt main_v9 main_v10
  let main_c_3 : IVec S_ 1 := constantI S_ 1 1#1
  let main_v12 : IVec S_ 1 := (fun x v => Host.reduce IntOp.andi x v reducesTo_S6x1_S_d0_1 h_S_) main_v11 main_c_3
  let main_v13 : IVec S_ 1 := andi main_v8 main_v12
  let main_v14 : FVec F S100x12288 .f32 := Host.absf main_arg4
  let main_cst_4 : FVec F S_ .f32 := constant S_ .f32 0x7F800000#32
  let main_v15 : FVec F S100x12288 .f32 := broadcastInDim S100x12288 ![] bcast_S_S100x12288 main_cst_4
  let main_v16 : IVec S100x12288 1 := cmpf .olt main_v14 main_v15
  fn_part1 (F := F) main_arg5 main_v13 main_v16
-- ==== Kernel.lean ====
abbrev S4x4096x4096 : Shape := ⟨3, ![4, 4096, 4096]⟩
abbrev S4096x64 : Shape := ⟨2, ![4096, 64]⟩
abbrev S64x3 : Shape := ⟨2, ![64, 3]⟩
abbrev S6x1 : Shape := ⟨2, ![6, 1]⟩
abbrev S100x12288 : Shape := ⟨2, ![100, 12288]⟩
abbrev S100 : Shape := ⟨1, ![100]⟩
abbrev S4096x3 : Shape := ⟨2, ![4096, 3]⟩
abbrev S3x1 : Shape := ⟨2, ![3, 1]⟩
abbrev S4096x1 : Shape := ⟨2, ![4096, 1]⟩
abbrev S1x4096 : Shape := ⟨2, ![1, 4096]⟩
abbrev S4x4096x3 : Shape := ⟨3, ![4, 4096, 3]⟩
abbrev S1x256x4096 : Shape := ⟨3, ![1, 256, 4096]⟩
abbrev S256x1 : Shape := ⟨2, ![256, 1]⟩
abbrev S1x256x3 : Shape := ⟨3, ![1, 256, 3]⟩
abbrev S256x4096 : Shape := ⟨2, ![256, 4096]⟩
abbrev S256 : Shape := ⟨1, ![256]⟩
abbrev S256x3 : Shape := ⟨2, ![256, 3]⟩
abbrev S4x12288 : Shape := ⟨2, ![4, 12288]⟩
abbrev S12288x100 : Shape := ⟨2, ![12288, 100]⟩
abbrev S4x100 : Shape := ⟨2, ![4, 100]⟩
abbrev S1x100 : Shape := ⟨2, ![1, 100]⟩

abbrev nBuf : Space → Nat
  | .hbm => 19
  | .vmem => 10
  | .smem => 0
  | _ => 0

abbrev bufTy : (tb : Table) → Fin (tcTables nBuf tb) → BufTy
  | .hbm, ⟨0, _⟩ => ⟨S4x4096x4096, .i32⟩
  | .hbm, ⟨1, _⟩ => ⟨S4096x64, .f32⟩
  | .hbm, ⟨2, _⟩ => ⟨S64x3, .f32⟩
  | .hbm, ⟨3, _⟩ => ⟨S6x1, .f32⟩
  | .hbm, ⟨4, _⟩ => ⟨S100x12288, .f32⟩
  | .hbm, ⟨5, _⟩ => ⟨S100, .f32⟩
  | .hbm, ⟨6, _⟩ => ⟨S4096x3, .f32⟩
  | .hbm, ⟨7, _⟩ => ⟨S3x1, .f32⟩
  | .hbm, ⟨8, _⟩ => ⟨S4096x1, .f32⟩
  | .hbm, ⟨9, _⟩ => ⟨S3x1, .f32⟩
  | .hbm, ⟨10, _⟩ => ⟨S4096x1, .f32⟩
  | .hbm, ⟨11, _⟩ => ⟨S1x4096, .f32⟩
  | .hbm, ⟨12, _⟩ => ⟨S4x4096x3, .f32⟩
  | .hbm, ⟨13, _⟩ => ⟨S4x12288, .f32⟩
  | .hbm, ⟨14, _⟩ => ⟨S12288x100, .f32⟩
  | .hbm, ⟨15, _⟩ => ⟨S4x100, .f32⟩
  | .hbm, ⟨16, _⟩ => ⟨S1x100, .f32⟩
  | .hbm, ⟨17, _⟩ => ⟨S4x100, .f32⟩
  | .hbm, ⟨18, _⟩ => ⟨S4x100, .f32⟩
  | .local _ .vmem, ⟨0, _⟩ => ⟨S1x256x4096, .i32⟩
  | .local _ .vmem, ⟨1, _⟩ => ⟨S1x256x4096, .i32⟩
  | .local _ .vmem, ⟨2, _⟩ => ⟨S256x1, .f32⟩
  | .local _ .vmem, ⟨3, _⟩ => ⟨S256x1, .f32⟩
  | .local _ .vmem, ⟨4, _⟩ => ⟨S1x4096, .f32⟩
  | .local _ .vmem, ⟨5, _⟩ => ⟨S4096x3, .f32⟩
  | .local _ .vmem, ⟨6, _⟩ => ⟨S1x256x3, .f32⟩
  | .local _ .vmem, ⟨7, _⟩ => ⟨S1x256x3, .f32⟩
  | .local _ .vmem, ⟨8, _⟩ => ⟨S256x4096, .f32⟩
  | .local _ .vmem, ⟨9, _⟩ => ⟨S256x1, .f32⟩
  | _, _ => ⟨S4x4096x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S6x1_S3x1_0_0 : S6x1.Slices ![0, 0] S3x1
  slices_S6x1_S3x1_3_0 : S6x1.Slices ![3, 0] S3x1
  transposes_S4096x1_S1x4096_1_0 : S4096x1.Transposes [1, 0] S1x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  reduces_S256x4096_S256 : S256x4096.Reduces [1] S256
  shapeCasts_S256_S256x1 : S256.ShapeCasts S256x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  bitsLt_bf16_f32 : FTy.bits .bf16 < FTy.bits .f32
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S256x3_S1x256x3 : S256x3.ShapeCasts S1x256x3
  shapeCasts_S4x4096x3_S4x12288 : S4x4096x3.ShapeCasts S4x12288
  transposes_S100x12288_S12288x100_1_0 : S100x12288.Transposes [1, 0] S12288x100
  bcast_S100_S1x100_1 : S100.BroadcastsInDim S1x100 (![1] : Fin 1 → Fin S1x100.rank)
  bcast_S1x100_S4x100_0_1 : S1x100.BroadcastsInDim S4x100 (![0, 1] : Fin 2 → Fin S4x100.rank)
  dot_S4096x64_S64x3_S4096x3_1_0_0_1_n_n_wf : DotDims.WF S4096x64 S64x3 S4096x3 [1] [0] [0] [1] [] []
  dot_S4096x3_S3x1_S4096x1_1_0_0_1_n_n_wf : DotDims.WF S4096x3 S3x1 S4096x1 [1] [0] [0] [1] [] []
  dot_S256x4096_S4096x3_S256x3_1_0_0_1_n_n_wf : DotDims.WF S256x4096 S4096x3 S256x3 [1] [0] [0] [1] [] []
  dot_S4x12288_S12288x100_S4x100_1_0_0_1_n_n_wf : DotDims.WF S4x12288 S12288x100 S4x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x4096x4096.size a
  hwx0_0 : ∀ i : grid0.Coords, EltTy.bits .i32 = 32 ∨ (Rect.block (s := S4x4096x4096) S1x256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x3.size a ≤ S4096x3.size a
  hwx0_3 : ∀ i : grid0.Coords, EltTy.bits .f32 = 32 ∨ (Rect.block (s := S4096x3) S4096x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x3.size a ≤ S4x4096x3.size a
  hwx0_4 : ∀ i : grid0.Coords, EltTy.bits .f32 = 32 ∨ (Rect.block (s := S4x4096x3) S1x256x3.size (cc0_transform_4 i) (hinb0_4 i)).WholeWords (EltTy.packing .f32)

variable [Facts₀]

def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf
def dot_S4096x3_S3x1_S4096x1_1_0_0_1_n_n : DotDims S4096x3 S3x1 S4096x1 where
  lhsContracting := [1]
  rhsContracting := [0]
  lhsNonContracting := [0]
  rhsNonContracting := [1]
  lhsBatch := []
  rhsBatch := []
  wf := dot_S4096x3_S3x1_S4096x1_1_0_0_1_n_n_wf
def dot_S256x4096_S4096x3_S256x3_1_0_0_1_n_n : DotDims S256x4096 S4096x3 S256x3 where
  lhsContracting := [1]
  rhsContracting := [0]
  lhsNonContracting := [0]
  rhsNonContracting := [1]
  lhsBatch := []
  rhsBatch := []
  wf := dot_S256x4096_S4096x3_S256x3_1_0_0_1_n_n_wf
def dot_S4x12288_S12288x100_S4x100_1_0_0_1_n_n : DotDims S4x12288 S12288x100 S4x100 where
  lhsContracting := [1]
  rhsContracting := [0]
  lhsNonContracting := [0]
  rhsNonContracting := [1]
  lhsBatch := []
  rhsBatch := []
  wf := dot_S4x12288_S12288x100_S4x100_1_0_0_1_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x64 : Shape := ⟨2, ![4096, 64]⟩
abbrev S64x3 : Shape := ⟨2, ![64, 3]⟩
abbrev S6x1 : Shape := ⟨2, ![6, 1]⟩
abbrev S100x12288 : Shape := ⟨2, ![100, 12288]⟩
abbrev S100 : Shape := ⟨1, ![100]⟩
abbrev S4096x3 : Shape := ⟨2, ![4096, 3]⟩
abbrev S3x1 : Shape := ⟨2, ![3, 1]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x4096 : Shape := ⟨3, ![1, 4096, 4096]⟩
abbrev S4x4096 : Shape := ⟨2, ![4, 4096]⟩
abbrev S4x4096x1 : Shape := ⟨3, ![4, 4096, 1]⟩
abbrev S4x4096x3 : Shape := ⟨3, ![4, 4096, 3]⟩
abbrev S4x12288 : Shape := ⟨2, ![4, 12288]⟩
abbrev S12288x100 : Shape := ⟨2, ![12288, 100]⟩
abbrev S4x100 : Shape := ⟨2, ![4, 100]⟩
abbrev S1x100 : Shape := ⟨2, ![1, 100]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x4096, .i32⟩
  | .hbm, ⟨1, _⟩ => ⟨S4096x64, .f32⟩
  | .hbm, ⟨2, _⟩ => ⟨S64x3, .f32⟩
  | .hbm, ⟨3, _⟩ => ⟨S6x1, .f32⟩
  | .hbm, ⟨4, _⟩ => ⟨S100x12288, .f32⟩
  | .hbm, ⟨5, _⟩ => ⟨S100, .f32⟩
  | .hbm, ⟨6, _⟩ => ⟨S4096x3, .f32⟩
  | .hbm, ⟨7, _⟩ => ⟨S3x1, .f32⟩
  | .hbm, ⟨8, _⟩ => ⟨S4096x1, .f32⟩
  | .hbm, ⟨9, _⟩ => ⟨S3x1, .f32⟩
  | .hbm, ⟨10, _⟩ => ⟨S4096x1, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S4096x4096, .f32⟩
  | .hbm, ⟨18, _⟩ => ⟨S4096x4096, .i1⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .i32⟩
  | .hbm, ⟨24, _⟩ => ⟨S4x4096x4096, .i32⟩
  | .hbm, ⟨25, _⟩ => ⟨S4x4096x4096, .i1⟩
  | .hbm, ⟨26, _⟩ => ⟨S1x4096x4096, .f32⟩
  | .hbm, ⟨27, _⟩ => ⟨S_, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S4x4096x4096, .f32⟩
  | .hbm, ⟨44, _⟩ => ⟨S4x4096x4096, .f32⟩
  | .hbm, ⟨45, _⟩ => ⟨S4x4096x3, .f32⟩
  | .hbm, ⟨46, _⟩ => ⟨S_, .f32⟩
  | .hbm, ⟨47, _⟩ => ⟨S4x4096x3, .f32⟩
  | .hbm, ⟨48, _⟩ => ⟨S4x4096x3, .i1⟩
  | .hbm, ⟨49, _⟩ => ⟨S_, .f32⟩
  | .hbm, ⟨50, _⟩ => ⟨S4x4096x3, .f32⟩
  | .hbm, ⟨51, _⟩ => ⟨S4x4096x3, .i1⟩
  | .hbm, ⟨52, _⟩ => ⟨S_, .f32⟩
  | .hbm, ⟨53, _⟩ => ⟨S_, .f32⟩
  | .hbm, ⟨54, _⟩ => ⟨S4x4096x3, .f32⟩
  | .hbm, ⟨55, _⟩ => ⟨S4x4096x3, .f32⟩
  | .hbm, ⟨56, _⟩ => ⟨S4x4096x3, .f32⟩
  | .hbm, ⟨57, _⟩ => ⟨S_, .f32⟩
  | .hbm, ⟨58, _⟩ => ⟨S4x4096x3, .f32⟩
  | .hbm, ⟨59, _⟩ => ⟨S4x4096x3, .f32⟩
  | .hbm, ⟨60, _⟩ => ⟨S4x4096x3, .f32⟩
  | .hbm, ⟨61, _⟩ => ⟨S4x12288, .f32⟩
  | .hbm, ⟨62, _⟩ => ⟨S12288x100, .f32⟩
  | .hbm, ⟨63, _⟩ => ⟨S4x100, .f32⟩
  | .hbm, ⟨64, _⟩ => ⟨S1x100, .f32⟩
  | .hbm, ⟨65, _⟩ => ⟨S4x100, .f32⟩
  | .hbm, ⟨66, _⟩ => ⟨S4x100, .f32⟩
  | _, _ => ⟨S4x4096x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call2_cst : Ref sig .tc := ⟨.hbm, 46, rfl⟩
abbrev main_call2_v0 : Ref sig .tc := ⟨.hbm, 47, rfl⟩
abbrev main_call2_v1 : Ref sig .tc := ⟨.hbm, 48, rfl⟩
abbrev main_call2_cst_0 : Ref sig .tc := ⟨.hbm, 49, rfl⟩
abbrev main_call2_v2 : Ref sig .tc := ⟨.hbm, 50, rfl⟩
abbrev main_call2_v3 : Ref sig .tc := ⟨.hbm, 51, rfl⟩
abbrev main_call2_cst_1 : Ref sig .tc := ⟨.hbm, 52, rfl⟩
abbrev main_call2_call0_v0 : Ref sig .tc := ⟨.hbm, 53, rfl⟩
abbrev main_call2_call0_v1 : Ref sig .tc := ⟨.hbm, 54, rfl⟩
abbrev main_call2_v4 : Ref sig .tc := ⟨.hbm, 55, rfl⟩
abbrev main_call2_v5 : Ref sig .tc := ⟨.hbm, 56, rfl⟩
abbrev main_call2_cst_2 : Ref sig .tc := ⟨.hbm, 57, rfl⟩
abbrev main_call2_v6 : Ref sig .tc := ⟨.hbm, 58, rfl⟩
abbrev main_call2_v7 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩

abbrev nD : Nat := 1
abbrev τ : Topo := Topo.v7x

variable {F : FTy → Type} [FloatOps F]

class Facts₀ : Prop where
  slices_S6x1_S3x1_0_0 : S6x1.Slices ![0, 0] S3x1
  slices_S6x1_S3x1_3_0 : S6x1.Slices ![3, 0] S3x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S_S4x4096x4096 : S_.BroadcastsInDim S4x4096x4096 (![] : Fin 0 → Fin S4x4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S_S4x4096x3 : S_.BroadcastsInDim S4x4096x3 (![] : Fin 0 → Fin S4x4096x3.rank)
  shapeCasts_S4x4096x3_S4x12288 : S4x4096x3.ShapeCasts S4x12288
  transposes_S100x12288_S12288x100_1_0 : S100x12288.Transposes [1, 0] S12288x100
  bcast_S100_S1x100_1 : S100.BroadcastsInDim S1x100 (![1] : Fin 1 → Fin S1x100.rank)
  bcast_S1x100_S4x100_0_1 : S1x100.BroadcastsInDim S4x100 (![0, 1] : Fin 2 → Fin S4x100.rank)
  dot_S4096x64_S64x3_S4096x3_1_0_0_1_n_n_wf : DotDims.WF S4096x64 S64x3 S4096x3 [1] [0] [0] [1] [] []
  dot_S4096x3_S3x1_S4096x1_1_0_0_1_n_n_wf : DotDims.WF S4096x3 S3x1 S4096x1 [1] [0] [0] [1] [] []
  dot_S4x4096x4096_S4096x3_S4x4096x3_2_0_01_1_n_n_wf : DotDims.WF S4x4096x4096 S4096x3 S4x4096x3 [2] [0] [0, 1] [1] [] []
  dot_S4x12288_S12288x100_S4x100_1_0_0_1_n_n_wf : DotDims.WF S4x12288 S12288x100 S4x100 [1] [0] [0] [1] [] []

variable [Facts₀]

def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf
def dot_S4096x3_S3x1_S4096x1_1_0_0_1_n_n : DotDims S4096x3 S3x1 S4096x1 where
  lhsContracting := [1]
  rhsContracting := [0]
  lhsNonContracting := [0]
  rhsNonContracting := [1]
  lhsBatch := []
  rhsBatch := []
  wf := dot_S4096x3_S3x1_S4096x1_1_0_0_1_n_n_wf
def dot_S4x4096x4096_S4096x3_S4x4096x3_2_0_01_1_n_n : DotDims S4x4096x4096 S4096x3 S4x4096x3 where
  lhsContracting := [2]
  rhsContracting := [0]
  lhsNonContracting := [0, 1]
  rhsNonContracting := [1]
  lhsBatch := []
  rhsBatch := []
  wf := dot_S4x4096x4096_S4096x3_S4x4096x3_2_0_01_1_n_n_wf
def dot_S4x12288_S12288x100_S4x100_1_0_0_1_n_n : DotDims S4x12288 S12288x100 S4x100 where
  lhsContracting := [1]
  rhsContracting := [0]
  lhsNonContracting := [0]
  rhsNonContracting := [1]
  lhsBatch := []
  rhsBatch := []
  wf := dot_S4x12288_S12288x100_S4x100_1_0_0_1_n_n_wf

class Facts : Prop extends Facts₀ where

variable [Facts]
-- ==== Proof.KerCase.lean ====
/-
  What one run of the kernel body leaves behind, as values of what it loaded.

  At the first graph of a row tile (the body's conditional taken) the body computes the tile's leaky-ReLU scores from the
  source column `x1` and the destination row `x2`, stores their row maxima in one scratch buffer and their shifted
  exponentials in the other, reads both back and stores the output block computed from them, the adjacency block `x0` and the
  features `x3`. At the other graphs (conditional not taken) it stores only the output block, computed from what the scratch
  buffers already hold (`xs1` the row maxima, `xs0` the exponentials).
-/
import proofs.«121383_j73821897883807_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KerCase

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First graph of a tile: the row-maximum scratch ends at the maxima of the tile's scores. -/
theorem sout_A_1 (c : Dev nD) (i : grid0.Coords) (arg2 : Memref sig .tc .vmem S1x256x4096 .i32) (harg2 : arg2.IsWhole) (arg3 : Memref sig .tc .vmem S256x1 .f32) (harg3 : arg3.IsWhole) (arg4 : Memref sig .tc .vmem S1x4096 .f32) (harg4 : arg4.IsWhole) (arg5 : Memref sig .tc .vmem S4096x3 .f32) (harg5 : arg5.IsWhole) (arg6 : Memref sig .tc .vmem S1x256x3 .f32) (harg6 : arg6.IsWhole) (arg7 : Memref sig .tc .vmem S256x4096 .f32) (harg7 : arg7.IsWhole) (arg8 : Memref sig .tc .vmem S256x1 .f32) (harg8 : arg8.IsWhole) (hc0 : cond0_0 i) (x0 : Vec F S1x256x4096 .i32) (x1 : Vec F S256x1 .f32) (x2 : Vec F S1x4096 .f32) (x3 : Vec F S4096x3 .f32) :
    sout0_A_1 c i arg2 harg2 arg3 harg3 arg4 harg4 arg5 harg5 arg6 harg6 arg7 harg7 arg8 harg8 hc0 x0 x1 x2 x3 = k0_pay3 x1 x2 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_unit_zero (S := S256x1) hz2]
  simp only [View.readAt_eq_ld, harg3.read_unread, harg4.read_unread, View.ld_unit_zero (S := S256x1) hz2,
    View.ld_unit_zero (S := S1x4096) hz2]

/-- First graph of a tile: the exponent scratch ends at the shifted exponentials of the tile's scores. -/
theorem sout_A_0 (c : Dev nD) (i : grid0.Coords) (arg2 : Memref sig .tc .vmem S1x256x4096 .i32) (harg2 : arg2.IsWhole) (arg3 : Memref sig .tc .vmem S256x1 .f32) (harg3 : arg3.IsWhole) (arg4 : Memref sig .tc .vmem S1x4096 .f32) (harg4 : arg4.IsWhole) (arg5 : Memref sig .tc .vmem S4096x3 .f32) (harg5 : arg5.IsWhole) (arg6 : Memref sig .tc .vmem S1x256x3 .f32) (harg6 : arg6.IsWhole) (arg7 : Memref sig .tc .vmem S256x4096 .f32) (harg7 : arg7.IsWhole) (arg8 : Memref sig .tc .vmem S256x1 .f32) (harg8 : arg8.IsWhole) (hc0 : cond0_0 i) (x0 : Vec F S1x256x4096 .i32) (x1 : Vec F S256x1 .f32) (x2 : Vec F S1x4096 .f32) (x3 : Vec F S4096x3 .f32) :
    sout0_A_0 c i arg2 harg2 arg3 harg3 arg4 harg4 arg5 harg5 arg6 harg6 arg7 harg7 arg8 harg8 hc0 x0 x1 x2 x3 = k0_pay4 x1 x2 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero (S := S256x4096) hz2]
  simp only [View.readAt_eq_ld, harg3.read_unread, harg4.read_unread, View.ld_unit_zero (S := S256x1) hz2,
    View.ld_unit_zero (S := S1x4096) hz2]

/-- First graph of a tile: the output block is computed from the scratch contents just stored. -/
theorem out_A_4 (c : Dev nD) (i : grid0.Coords) (arg2 : Memref sig .tc .vmem S1x256x4096 .i32) (harg2 : arg2.IsWhole) (arg3 : Memref sig .tc .vmem S256x1 .f32) (harg3 : arg3.IsWhole) (arg4 : Memref sig .tc .vmem S1x4096 .f32) (harg4 : arg4.IsWhole) (arg5 : Memref sig .tc .vmem S4096x3 .f32) (harg5 : arg5.IsWhole) (arg6 : Memref sig .tc .vmem S1x256x3 .f32) (harg6 : arg6.IsWhole) (arg7 : Memref sig .tc .vmem S256x4096 .f32) (harg7 : arg7.IsWhole) (arg8 : Memref sig .tc .vmem S256x1 .f32) (harg8 : arg8.IsWhole) (hc0 : cond0_0 i) (x0 : Vec F S1x256x4096 .i32) (x1 : Vec F S256x1 .f32) (x2 : Vec F S1x4096 .f32) (x3 : Vec F S4096x3 .f32) :
    out0_A_4 c i arg2 harg2 arg3 harg3 arg4 harg4 arg5 harg5 arg6 harg6 arg7 harg7 arg8 harg8 hc0 x0 x1 x2 x3 = k0_pay5 x0 (k0_pay3 x1 x2) (k0_pay4 x1 x2) x3 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero (S := S1x256x3) hz3, View.readCov_unit_zero (S := S256x1) _ hz2,
    View.readCov_unit_zero (S := S256x4096) _ hz2]
  simp only [View.readAt_eq_ld, harg2.read_unread, harg3.read_unread, harg4.read_unread, harg5.read_unread,
    View.ld_unit_zero (S := S256x1) hz2, View.ld_unit_zero (S := S1x4096) hz2, View.ld_unit_zero (S := S1x256x4096) hz3,
    View.ld_unit_zero (S := S4096x3) hz2]

/-- Later graphs of a tile: the output block is computed from what the scratch buffers hold. -/
theorem out_B_4 (c : Dev nD) (i : grid0.Coords) (arg2 : Memref sig .tc .vmem S1x256x4096 .i32) (harg2 : arg2.IsWhole) (arg3 : Memref sig .tc .vmem S256x1 .f32) (harg3 : arg3.IsWhole) (arg4 : Memref sig .tc .vmem S1x4096 .f32) (harg4 : arg4.IsWhole) (arg5 : Memref sig .tc .vmem S4096x3 .f32) (harg5 : arg5.IsWhole) (arg6 : Memref sig .tc .vmem S1x256x3 .f32) (harg6 : arg6.IsWhole) (arg7 : Memref sig .tc .vmem S256x4096 .f32) (harg7 : arg7.IsWhole) (arg8 : Memref sig .tc .vmem S256x1 .f32) (harg8 : arg8.IsWhole) (hc0 : ¬cond0_0 i) (x0 : Vec F S1x256x4096 .i32) (x1 : Vec F S256x1 .f32) (x2 : Vec F S1x4096 .f32) (x3 : Vec F S4096x3 .f32) (xs0 : Vec F S256x4096 .f32) (xs1 : Vec F S256x1 .f32) :
    out0_B_4 c i arg2 harg2 arg3 harg3 arg4 harg4 arg5 harg5 arg6 harg6 arg7 harg7 arg8 harg8 hc0 x0 x1 x2 x3 xs0 xs1 = k0_pay5 x0 xs1 xs0 x3 := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  sl_unfold_words
  rw [View.canon_unit_zero (S := S1x256x3) hz3]
  simp only [View.readAt_eq_ld, harg2.read_unread, harg5.read_unread, harg7.read_unread, harg8.read_unread,
    View.ld_unit_zero (S := S256x1) hz2, View.ld_unit_zero (S := S256x4096) hz2, View.ld_unit_zero (S := S1x256x4096) hz3,
    View.ld_unit_zero (S := S4096x3) hz2]

end Cert.KernelIdeal.KerCase

end
-- ==== Proof.KerBlocks.lean ====
/-
  Where each window's block sits in its array.

  The grid is 16 row tiles by 4 graphs, the graph varying fastest: point `t` works on row tile `t / 4` of graph `t % 4`.
  Its adjacency block is rows `256·(t/4) …` of graph `t % 4`; its source block the same rows of the source column; the
  destination row and the feature matrix are whole at every point. A block's entry `(…, r, …)` is the array's entry at row
  `256·(t/4) + r`.
-/
import proofs.«121383_j73821897883807_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.KerBlocks

open Cert.KernelIdeal Cert.KernelIdeal.Gen

variable {F : FTy → Type} [FloatOps F]
variable (m : (ℓ : Loc nD τ sig) → Buf (Elt F) ℓ)

/-- The printed index maps over the grid: graph `t % 4`, row tile `t / 4`. -/
theorem idx_facts : ∀ t : Fin cfg0.N,
    win0_0.index t (0 : Fin 3) = t.val % 4 ∧ win0_0.index t (1 : Fin 3) = t.val / 4 ∧ win0_0.index t (2 : Fin 3) = 0
    ∧ win0_1.index t (0 : Fin 2) = t.val / 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val % 4 ∧ win0_4.index t (1 : Fin 3) = t.val / 4 ∧ win0_4.index t (2 : Fin 3) = 0 :=
  (by decide +kernel : ∀ t : Fin grid0.N,
    win0_0.index t (0 : Fin 3) = t.val % 4 ∧ win0_0.index t (1 : Fin 3) = t.val / 4 ∧ win0_0.index t (2 : Fin 3) = 0
    ∧ win0_1.index t (0 : Fin 2) = t.val / 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val % 4 ∧ win0_4.index t (1 : Fin 3) = t.val / 4 ∧ win0_4.index t (2 : Fin 3) = 0)

/-- Every pair (graph, row tile) is some point's. -/
theorem idx_onto : ∀ (b : Fin 4) (q : Fin 16), ∃ t : Fin cfg0.N, t.val % 4 = b.val ∧ t.val / 4 = q.val :=
  (by decide +kernel : ∀ (b : Fin 4) (q : Fin 16), ∃ t : Fin grid0.N, t.val % 4 = b.val ∧ t.val / 4 = q.val)

/-- The array row that row `r` of point `t`'s tile is. -/
def rowOf (t : Fin cfg0.N) (r : Fin 256) : Fin 4096 :=
  ⟨256 * (t.val / 4) + r.val, by have := t.isLt; have hN : cfg0.N = 64 := N_0; have := r.isLt; omega⟩

/-- The graph point `t` works on. -/
def graphOf (t : Fin cfg0.N) : Fin 4 := ⟨t.val % 4, Nat.mod_lt _ (by decide)⟩

/-- The adjacency block at point `t`. -/
theorem iblk0_apply (c : Dev nD) (t : Fin cfg0.N) (u : Fin 1) (r : Fin 256) (j : Fin 4096) :
    (iblk m c 0 t : Vec F S1x256x4096 .i32) (ix3 u r j) = V m c main_arg0 (ix3 (graphOf t) (rowOf t r) j) := by
  obtain ⟨e0, e1, e2, -⟩ := idx_facts t
  show V m c main_arg0 (((cfg0.win 0).blk t).view.emb (ix3 u r j)) = _
  refine congrArg (V m c main_arg0) (funext fun a => Fin.ext ?_)
  match a with
  | ⟨0, _⟩ => show win0_0.index t (0 : Fin 3) * 1 + 1 * u.val = t.val % 4; have := u.isLt; omega
  | ⟨1, _⟩ => show win0_0.index t (1 : Fin 3) * 256 + 1 * r.val = 256 * (t.val / 4) + r.val; omega
  | ⟨2, _⟩ => show win0_0.index t (2 : Fin 3) * 4096 + 1 * j.val = j.val; omega

/-- The source block at point `t`. -/
theorem iblk1_apply (c : Dev nD) (t : Fin cfg0.N) (r : Fin 256) (u : Fin 1) :
    (iblk m c 1 t : Vec F S256x1 .f32) (ix2 r u) = V m c main_v2 (ix2 (rowOf t r) u) := by
  obtain ⟨-, -, -, e0, e1, -⟩ := idx_facts t
  show V m c main_v2 (((cfg0.win 1).blk t).view.emb (ix2 r u)) = _
  refine congrArg (V m c main_v2) (funext fun a => Fin.ext ?_)
  match a with
  | ⟨0, _⟩ => show win0_1.index t (0 : Fin 2) * 256 + 1 * r.val = 256 * (t.val / 4) + r.val; omega
  | ⟨1, _⟩ => show win0_1.index t (1 : Fin 2) * 1 + 1 * u.val = u.val; omega

/-- The destination row is whole at every point. -/
theorem iblk2_apply (c : Dev nD) (t : Fin cfg0.N) (u : Fin 1) (j : Fin 4096) :
    (iblk m c 2 t : Vec F S1x4096 .f32) (ix2 u j) = V m c main_v5 (ix2 u j) := by
  obtain ⟨-, -, -, -, -, e0, e1, -⟩ := idx_facts t
  show V m c main_v5 (((cfg0.win 2).blk t).view.emb (ix2 u j)) = _
  refine congrArg (V m c main_v5) (funext fun a => Fin.ext ?_)
  match a with
  | ⟨0, _⟩ => show win0_2.index t (0 : Fin 2) * 1 + 1 * u.val = u.val; omega
  | ⟨1, _⟩ => show win0_2.index t (1 : Fin 2) * 4096 + 1 * j.val = j.val; omega

/-- The feature matrix is whole at every point. -/
theorem iblk3_apply (c : Dev nD) (t : Fin cfg0.N) (j : Fin 4096) (f : Fin 3) :
    (iblk m c 3 t : Vec F S4096x3 .f32) (ix2 j f) = V m c main_v0 (ix2 j f) := by
  obtain ⟨-, -, -, -, -, -, -, e0, e1, -⟩ := idx_facts t
  show V m c main_v0 (((cfg0.win 3).blk t).view.emb (ix2 j f)) = _
  refine congrArg (V m c main_v0) (funext fun a => Fin.ext ?_)
  match a with
  | ⟨0, _⟩ => show win0_3.index t (0 : Fin 2) * 4096 + 1 * j.val = j.val; omega
  | ⟨1, _⟩ => show win0_3.index t (1 : Fin 2) * 3 + 1 * f.val = f.val; omega

/-- Two points of one row tile see the same source block. -/
theorem iblk1_congr (c : Dev nD) (t t' : Fin cfg0.N) (h : t.val / 4 = t'.val / 4) :
    (iblk m c 1 t : Vec F S256x1 .f32) = (iblk m c 1 t' : Vec F S256x1 .f32) := by
  funext y
  obtain ⟨r, u, rfl⟩ : ∃ (r : Fin 256) (u : Fin 1), y = ix2 r u := ⟨y 0, y 1, eq_ix2 y⟩
  rw [iblk1_apply, iblk1_apply]
  exact congrArg (V m c main_v2) (congrArg (fun q : Fin 4096 => ix2 q u) (Fin.ext (by show 256 * (t.val / 4) + r.val = 256 * (t'.val / 4) + r.val; rw [h])))

/-- Every point sees the same destination row. -/
theorem iblk2_congr (c : Dev nD) (t t' : Fin cfg0.N) :
    (iblk m c 2 t : Vec F S1x4096 .f32) = (iblk m c 2 t' : Vec F S1x4096 .f32) := by
  funext y
  obtain ⟨u, j, rfl⟩ : ∃ (u : Fin 1) (j : Fin 4096), y = ix2 u j := ⟨y 0, y 1, eq_ix2 y⟩
  rw [iblk2_apply, iblk2_apply]

end Cert.KernelIdeal.KerBlocks

end
-- ==== Proof.KerValue.lean ====
/-
  What the output's staging buffer and the two scratch buffers hold after each grid point.

  By induction along the grid: after every point the exponent scratch holds the shifted exponentials, and the row-maximum
  scratch the row maxima, of the scores of THAT point's row tile — stored at the tile's first graph and untouched at its other
  three, whose source block and destination row are the same — and the output's staging buffer holds the output block computed
  from them, the point's adjacency block and the features.
-/
import proofs.«121383_j73821897883807_2_alg».proof.Proof.KerCase
import proofs.«121383_j73821897883807_2_alg».proof.Proof.KerBlocks

noncomputable section

open Idealize.ShloMosaic Idealize.ShloMosaic.TcCoe Idealize.SL.Sem

namespace Cert.KernelIdeal.KerValue

open Cert.KernelIdeal Cert.KernelIdeal.Gen Cert.KernelIdeal.KerCase Cert.KernelIdeal.KerBlocks

variable {F : FTy → Type} [FloatOps F]
variable (m : (ℓ : Loc nD τ sig) → Buf (Elt F) ℓ)

/-- The three buffers after point `t`, as values of the point's blocks. -/
def held (c : Dev nD) (t : Fin cfg0.N) : Vec F S1x256x3 .f32 × Vec F S256x4096 .f32 × Vec F S256x1 .f32 :=
  (k0_pay5 (iblk m c 0 t) (k0_pay3 (iblk m c 1 t) (iblk m c 2 t)) (k0_pay4 (iblk m c 1 t) (iblk m c 2 t)) (iblk m c 3 t),
    k0_pay4 (iblk m c 1 t) (iblk m c 2 t), k0_pay3 (iblk m c 1 t) (iblk m c 2 t))

/-- At a tile's first graph the three buffers hold the freshly computed values. -/
theorem outsAt_first (c : Dev nD) (t : Fin cfg0.N) (h0 : t.val % 4 = 0) : outsAt0 m c t.val t.isLt = held m c t := by
  rw [outsAt0_A m c t h0]
  unfold held
  rw [out_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t),
    sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t),
    sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)]

/-- THE INVARIANT, by induction along the grid. -/
theorem outsAt_eq (c : Dev nD) : ∀ (n : ℕ) (h : n < cfg0.N), outsAt0 m c n h = held m c ⟨n, h⟩
  | 0, h => outsAt_first m c ⟨0, h⟩ rfl
  | n + 1, h => by
    by_cases h0 : (n + 1) % 4 = 0
    · exact outsAt_first m c ⟨n + 1, h⟩ h0
    · have ih := outsAt_eq c n (Nat.lt_of_succ_lt h)
      have e1 : (iblk m c 1 ⟨n, Nat.lt_of_succ_lt h⟩ : Vec F S256x1 .f32) = iblk m c 1 ⟨n + 1, h⟩ :=
        iblk1_congr m c _ _ (by show n / 4 = (n + 1) / 4; omega)
      have e2 : (iblk m c 2 ⟨n, Nat.lt_of_succ_lt h⟩ : Vec F S1x4096 .f32) = iblk m c 2 ⟨n + 1, h⟩ := iblk2_congr m c _ _
      rw [outsAt0_B m c ⟨n + 1, h⟩ h0]
      show (out0_B_4 _ _ _ _ _ _ _ _ _ _ _ _ _ _ _ _ _ _ _ _ _ (outsAt0 m c n _).2.1 (outsAt0 m c n _).2.2,
        sout0_B_0 _ _ _ _ _ _ _ _ _ _ _ _ _ _ _ _ _ _ _ _ _ (outsAt0 m c n _).2.1 (outsAt0 m c n _).2.2,
        sout0_B_1 _ _ _ _ _ _ _ _ _ _ _ _ _ _ _ _ _ _ _ _ _ (outsAt0 m c n _).2.1 (outsAt0 m c n _).2.2) = _
      rw [ih]
      unfold held sout0_B_0 sout0_B_1
      dsimp only
      rw [e1, e2]
      rw [out_B_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩)]

/-- What the output's staging buffer holds after point `t`. -/
theorem out_eq (c : Dev nD) (t : Fin cfg0.N) :
    (outsAt0 m c t.val t.isLt).1
      = k0_pay5 (iblk m c 0 t) (k0_pay3 (iblk m c 1 t) (iblk m c 2 t)) (k0_pay4 (iblk m c 1 t) (iblk m c 2 t)) (iblk m c 3 t) := by
  rw [outsAt_eq m c t.val t.isLt]
  rfl

end Cert.KernelIdeal.KerValue

end
-- ==== Proof.KerCover.lean ====
/-
  The output blocks tile the output array.

  Point `t`'s output block is rows `256·(t/4) … 256·(t/4) + 255` of graph `t % 4`, all three features; entry `(0, r, f)` of the
  block is the array's entry `(t % 4, 256·(t/4) + r, f)`. Every entry `(b, R, f)` of the array lies in the block of the point
  with `t % 4 = b` and `t / 4 = R / 256`.
-/
import proofs.«121383_j73821897883807_2_alg».proof.Proof.KerBlocks

noncomputable section

open Idealize.ShloMosaic Idealize.ShloMosaic.TcCoe Idealize.SL.Sem Idealize.ShloMosaic.ValueIdx

namespace Cert.KernelIdeal.KerCover

open Cert.KernelIdeal Cert.KernelIdeal.Gen Cert.KernelIdeal.KerBlocks

/-- Where an entry of point `t`'s output block sits in the output array. -/
theorem emb4 (t : Fin cfg0.N) (u : Fin 1) (r : Fin 256) (f : Fin 3) :
    ((cfg0.win 4).blk t).view.emb (ix3 u r f) = ix3 (graphOf t) (rowOf t r) f := by
  obtain ⟨-, -, -, -, -, -, -, -, -, e0, e1, e2⟩ := idx_facts t
  funext a
  apply Fin.ext
  match a with
  | ⟨0, _⟩ => show win0_4.index t (0 : Fin 3) * 1 + 1 * u.val = t.val % 4; have := u.isLt; omega
  | ⟨1, _⟩ => show win0_4.index t (1 : Fin 3) * 256 + 1 * r.val = 256 * (t.val / 4) + r.val; omega
  | ⟨2, _⟩ => show win0_4.index t (2 : Fin 3) * 3 + 1 * f.val = f.val; omega

/-- An index of the output array is in point `t`'s block iff each coordinate is in the block's range on its axis. -/
theorem mem_blk4 (t : Fin cfg0.N) (i : S4x4096x3.Idx) :
    i ∈ ((cfg0.win 4).blk t).view.set ↔ ∀ a : Fin 3, win0_4.index t a * S1x256x3.size a ≤ (i a).val ∧ (i a).val < win0_4.index t a * S1x256x3.size a + S1x256x3.size a := by
  show i ∈ ((View.whole main_v6).slice (win0_4.rect t)).set ↔ _
  rw [View.set_slice_whole, Rect.mem_set_unit]
  exact Iff.rfl

/-- Every entry of the output array is in some point's block, and every point writes its block back. -/
theorem cover4 (i : S4x4096x3.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 3 := (i 2).isLt
  obtain ⟨t, hb, hq⟩ := idx_onto ⟨(i 0).val, h0⟩ ⟨(i 1).val / 256, by omega⟩
  have hb' : t.val % 4 = (i 0).val := hb
  have hq' : t.val / 4 = (i 1).val / 256 := hq
  obtain ⟨-, -, -, -, -, -, -, -, -, e0, e1, e2⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 3 ≤ (i 2).val ∧ (i 2).val < win0_4.index t (2 : Fin 3) * 3 + 3; omega

end Cert.KernelIdeal.KerCover

end
-- ==== Proof.GatSpec.lean ====
/-
  One output entry of a graph-attention layer, written twice.

  Fix a node row: `x j` is the score of edge `(row, j)` before the leaky ReLU, `c j` says whether the edge is present, and
  `hc j` is one feature of node `j`. The entry is ELU(Σ_j att_j · hc_j), where `att` is the softmax over `j` of the leaky-ReLU
  scores with the absent edges filled by the constant 9e-15.

  * `kOut` shifts every exponent by the maximum `m` of the UNMASKED leaky-ReLU scores: a present edge weighs
    exp(lrelu x_j - m), an absent one exp(9e-15 - m), and the ELU is `y` for `y > 0`, else `exp y - 1`.
  * `rOut` is the textbook form: the scores are masked first, the shift is the maximum of the MASKED scores, the sum starts
    from a zero, and the ELU is spelt through `expm1` of the clamped argument times one.

  The two agree when the scores and features are real numbers (a softmax does not change when every exponent is shifted by the
  same real); `Proof/GatMath.lean` proves it.
-/
import Idealize.ShloMosaic.PureOps.Ideal
import Idealize.ShloMosaic.Lib.ValueIdx

noncomputable section

open scoped BigOperators

namespace Cert.Gat

open Idealize.ShloMosaic

variable {ι : Type} [Fintype ι]

/-- Leaky ReLU with slope 0.2, tested by `x > 0`, the slope on the right. -/
def lreluK (x : EReal) : EReal :=
  Scalar.select (Ideal.cmp .ogt x (Ideal.ofBits .f32 0x00000000#32)) x (x * Ideal.ofBits .f32 0x3E4CCCCD#32)

/-- The maximum over the row of the unmasked leaky-ReLU scores, from `-∞`. -/
def rowMaxK (x : ι → EReal) : EReal :=
  (Finset.univ : Finset ι).fold max (Ideal.ofBits .f32 0xFF800000#32) (fun k => lreluK (x k))

/-- The unnormalised weight of edge `j`: a present edge's shifted exponential, an absent edge's shifted fill. -/
def wK (x : ι → EReal) (c : ι → BitVec 1) (j : ι) : EReal :=
  Scalar.select (c j) (Ideal.exp (lreluK (x j) - rowMaxK x))
    (Ideal.exp (Ideal.ofBits .f32 0x2822212D#32 - rowMaxK x))

/-- ELU as `y` above zero and `exp y - 1` otherwise. -/
def eluK (y : EReal) : EReal :=
  Scalar.select (Ideal.cmp .ogt y (Ideal.ofBits .f32 0x00000000#32)) y (Ideal.exp y - Ideal.ofBits .f32 0x3F800000#32)

/-- The entry, with the shift by the unmasked maximum. -/
def kOut (x : ι → EReal) (c : ι → BitVec 1) (hc : ι → EReal) : EReal :=
  eluK (∑ j, Ideal.div (wK x c j) (∑ k, wK x c k) * hc j)

/-- Leaky ReLU with slope 0.2, tested by `x ≥ 0`, the slope on the left. -/
def lreluR (x : EReal) : EReal :=
  Scalar.select (Ideal.cmp .oge x (Ideal.ofBits .f32 0x00000000#32)) x (Ideal.ofBits .f32 0x3E4CCCCD#32 * x)

/-- The masked score of edge `j`. -/
def scoreR (x : ι → EReal) (c : ι → BitVec 1) (j : ι) : EReal :=
  Scalar.select (c j) (lreluR (x j)) (Ideal.ofBits .f32 0x2822212D#32)

/-- The maximum over the row of the masked scores, from `-∞`, joined once more with `-∞`. -/
def rowMaxR (x : ι → EReal) (c : ι → BitVec 1) : EReal :=
  max (Ideal.ofBits .f32 0xFF800000#32)
    ((Finset.univ : Finset ι).fold max (Ideal.ofBits .f32 0xFF800000#32) (fun k => scoreR x c k))

/-- The unnormalised softmax weight of edge `j`. -/
def wR (x : ι → EReal) (c : ι → BitVec 1) (j : ι) : EReal :=
  Ideal.exp (scoreR x c j - rowMaxR x c)

/-- ELU as `y` above zero and `1 · expm1 (y clamped to ≤ 0)` otherwise. -/
def eluR (y : EReal) : EReal :=
  Scalar.select (Ideal.cmp .ogt y (Ideal.ofBits .f32 0x00000000#32)) y
    (Ideal.ofBits .f32 0x3F800000#32
      * (Ideal.exp (Scalar.select (Ideal.cmp .ogt y (Ideal.ofBits .f32 0x00000000#32)) (Ideal.ofBits .f32 0x00000000#32) y) - 1))

/-- The entry, in the textbook form. -/
def rOut (x : ι → EReal) (c : ι → BitVec 1) (hc : ι → EReal) : EReal :=
  eluR (∑ j, Ideal.div (wR x c j) (Ideal.ofBits .f32 0x00000000#32 + ∑ k, wR x c k) * hc j)

/-! ## The layer, entry by entry, from the argument arrays -/

open Idealize.ShloMosaic.ValueIdx

/-- Node features `ent_emb · W` at node `i`, feature `f`. -/
def feat (a1 : (⟨2, ![4096, 64]⟩ : Shape).Idx → EReal) (a2 : (⟨2, ![64, 3]⟩ : Shape).Idx → EReal) (i : Fin 4096) (f : Fin 3) : EReal :=
  ∑ k : Fin 64, a1 (ix2 i k) * a2 (ix2 k f)

/-- The source half of node `i`'s score: its features against the first three attention weights. -/
def srcS (a1 : (⟨2, ![4096, 64]⟩ : Shape).Idx → EReal) (a2 : (⟨2, ![64, 3]⟩ : Shape).Idx → EReal)
    (a3 : (⟨2, ![6, 1]⟩ : Shape).Idx → EReal) (i : Fin 4096) : EReal :=
  ∑ k : Fin 3, feat a1 a2 i k * a3 (ix2 (⟨k.val, by omega⟩ : Fin 6) (0 : Fin 1))

/-- The destination half of node `j`'s score: its features against the last three attention weights. -/
def dstS (a1 : (⟨2, ![4096, 64]⟩ : Shape).Idx → EReal) (a2 : (⟨2, ![64, 3]⟩ : Shape).Idx → EReal)
    (a3 : (⟨2, ![6, 1]⟩ : Shape).Idx → EReal) (j : Fin 4096) : EReal :=
  ∑ k : Fin 3, feat a1 a2 j k * a3 (ix2 (⟨3 + k.val, by omega⟩ : Fin 6) (0 : Fin 1))

/-- Entry `(b, R, f)` of the layer's output with the shift by the unmasked row maximum. -/
def layerK (a0 : (⟨3, ![4, 4096, 4096]⟩ : Shape).Idx → BitVec 32) (a1 : (⟨2, ![4096, 64]⟩ : Shape).Idx → EReal)
    (a2 : (⟨2, ![64, 3]⟩ : Shape).Idx → EReal) (a3 : (⟨2, ![6, 1]⟩ : Shape).Idx → EReal)
    (b : Fin 4) (R : Fin 4096) (f : Fin 3) : EReal :=
  kOut (fun j : Fin 4096 => srcS a1 a2 a3 R + dstS a1 a2 a3 j) (fun j : Fin 4096 => IntOp.cmpi .sgt (a0 (ix3 b R j)) 0#32)
    (fun j : Fin 4096 => feat a1 a2 j f)

/-- Entry `(b, R, f)` of the layer's output in the textbook form. -/
def layerR (a0 : (⟨3, ![4, 4096, 4096]⟩ : Shape).Idx → BitVec 32) (a1 : (⟨2, ![4096, 64]⟩ : Shape).Idx → EReal)
    (a2 : (⟨2, ![64, 3]⟩ : Shape).Idx → EReal) (a3 : (⟨2, ![6, 1]⟩ : Shape).Idx → EReal)
    (b : Fin 4) (R : Fin 4096) (f : Fin 3) : EReal :=
  rOut (fun j : Fin 4096 => srcS a1 a2 a3 R + dstS a1 a2 a3 j) (fun j : Fin 4096 => IntOp.cmpi .sgt (a0 (ix3 b R j)) 0#32)
    (fun j : Fin 4096 => feat a1 a2 j f)

end Cert.Gat

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KerPay.lean ====
/-
  The values the graph-attention kernel's body stores, read at one index on the extended reals.

  For a block of 256 node rows the body first (on the first of the four graphs) forms, from the source column `s` and the
  destination row `d`, the leaky-ReLU scores lrelu(s_r + d_j), their row maxima m_r over ALL columns j, and the shifted
  exponentials exp(lrelu(s_r + d_j) - m_r); the maxima and the exponentials are kept in two scratch buffers. For every graph it
  then picks, per edge (r, j), the stored exponential when the edge is present and exp(9e-15 - m_r) when it is absent, divides
  by the row's sum of these weights, multiplies the weight matrix into the node features, and applies the ELU.

  Read at (0, r, f) with the scratch buffers holding what the first pass stored, the output block is the specification's
  `kOut` for the scores x_j = s_r + d_j of row r, the presence bits of row r of the adjacency block, and feature f of every
  node: `pay5_apply`. The changes of float format before the product are the identity on the extended reals, and the product
  into the zero accumulator is the plain sum over the 4096 nodes.
-/
import proofs.«121383_j73821897883807_2_alg».proof.Proof.Gen.KernelIdeal.Skeleton
import proofs.«121383_j73821897883807_2_alg».proof.Proof.GatSpec
import proofs.«121383_j73821897883807_2_alg».proof.Proof.LibRowReduce
import proofs.«121383_j73821897883807_2_alg».proof.Proof.LibPlainDot
import proofs.«121383_j73821897883807_2_alg».proof.Proof.LibKeepdims
import Idealize.ShloMosaic.Lib.ValueLayout
import Idealize.ShloMosaic.Lib.ValueIdx
import Idealize.ShloMosaic.PureOps.Ideal.Laws

noncomputable section

open scoped BigOperators

namespace Cert.KernelIdeal.KerPay

open Cert.KernelIdeal Cert.KernelIdeal.Gen Idealize.ShloMosaic Idealize.ShloMosaic.ValueIdx Cert.Gat

/-- The exponential of an array, read at an index. -/
theorem exp_apply {s : Shape} {φ : FTy} (a : FVec Ideal s φ) (i : s.Idx) : exp a i = Ideal.exp (a i) := rfl

/-- An integer comparison of arrays, read at an index. -/
theorem cmpi_apply {s : Shape} {w : Nat} (p : CmpIPredicate) (a b : IVec s w) (i : s.Idx) :
    cmpi p a b i = IntOp.cmpi p (a i) (b i) := rfl

/-- The leaky-ReLU score of the pair (row r, column j): the source entry of the row plus the destination entry of the column. -/
theorem pay1_apply (s : Vec Ideal S256x1 .f32) (d : Vec Ideal S1x4096 .f32) (r : Fin 256) (j : Fin 4096) :
    k0_pay1 (F := Ideal) s d (ix2 r j) = lreluK (s (ix2 r (0 : Fin 1)) + d (ix2 (0 : Fin 1) j)) := by
  unfold k0_pay1
  rw [shapeCast_self, shapeCast_self]
  simp only [select_apply, cmpf_apply, addf_apply, mulf_apply, broadcast_apply]
  rw [Cert.Lib.broadcastTo_a1_ab_apply, broadcastTo_1b_ab_apply]
  rfl

/-- The row maximum of the unmasked leaky-ReLU scores, kept as a column. -/
theorem pay2_apply (s : Vec Ideal S256x1 .f32) (d : Vec Ideal S1x4096 .f32) (r : Fin 256) (u : Fin 1) :
    k0_pay2 (F := Ideal) s d (ix2 r u)
      = rowMaxK (fun j : Fin 4096 => s (ix2 r (0 : Fin 1)) + d (ix2 (0 : Fin 1) j)) := by
  unfold k0_pay2
  refine (Cert.Lib.shapeCast_a_a1_apply _ _ r u).trans ?_
  refine (Cert.Lib.multiReduction_max_row (k0_pay1 (F := Ideal) s d) _ _ _ _ r).trans ?_
  exact congrArg (fun g : Fin 4096 → EReal => (Finset.univ : Finset (Fin 4096)).fold max (Ideal.ofBits .f32 0xFF800000#32) g)
    (funext fun k => pay1_apply s d r k)

/-- What is stored in the row-maximum scratch is the column of row maxima. -/
theorem pay3_eq (s : Vec Ideal S256x1 .f32) (d : Vec Ideal S1x4096 .f32) :
    k0_pay3 (F := Ideal) s d = k0_pay2 (F := Ideal) s d := by
  unfold k0_pay3
  exact shapeCast_self _ _

/-- What is stored in the exponent scratch: the exponential of the score shifted by its row's maximum. -/
theorem pay4_apply (s : Vec Ideal S256x1 .f32) (d : Vec Ideal S1x4096 .f32) (r : Fin 256) (j : Fin 4096) :
    k0_pay4 (F := Ideal) s d (ix2 r j)
      = Ideal.exp (lreluK (s (ix2 r (0 : Fin 1)) + d (ix2 (0 : Fin 1) j))
          - rowMaxK (fun j : Fin 4096 => s (ix2 r (0 : Fin 1)) + d (ix2 (0 : Fin 1) j))) := by
  unfold k0_pay4
  rw [shapeCast_self]
  simp only [exp_apply, subf_apply]
  rw [pay1_apply, Cert.Lib.broadcastTo_a1_ab_apply, pay2_apply]

/-- The unnormalised weight of edge (r, k) as the kernel forms it from its scratch buffers: the stored exponential for a
present edge, the shifted fill for an absent one. -/
def wSel (x0 : Vec Ideal S1x256x4096 .i32) (M : Vec Ideal S256x1 .f32) (P : Vec Ideal S256x4096 .f32)
    (r : Fin 256) (k : Fin 4096) : EReal :=
  Scalar.select (IntOp.cmpi .sgt (x0 (ix3 (0 : Fin 1) r k)) 0#32) (P (ix2 r k))
    (Ideal.exp (Ideal.ofBits .f32 0x2822212D#32 - M (ix2 r (0 : Fin 1))))

/-- The selected weight array read at (r, k). -/
theorem sel_apply (x0 : Vec Ideal S1x256x4096 .i32) (M : Vec Ideal S256x1 .f32) (P : Vec Ideal S256x4096 .f32)
    (h1 : S1x256x4096.ShapeCasts S256x4096) (h2 : S256x1.ShapeCasts S256x1) (hb : S256x1.Broadcasts S256x4096)
    (r : Fin 256) (k : Fin 4096) :
    select (cmpi .sgt (shapeCast S256x4096 x0 h1) (broadcast S256x4096 0#32)) P
        (broadcastTo S256x4096
          (shapeCast S256x1 (exp (subf (broadcast S256x1 (Scalar.ofBits (F := Ideal) .f32 0x2822212D#32)) M)) h2) hb) (ix2 r k)
      = wSel x0 M P r k := by
  refine (select_apply _ _ _ _).trans ?_
  rw [Cert.Lib.broadcastTo_a1_ab_apply, shapeCast_self, cmpi_apply, shapeCast_1ab_ab_apply]
  rfl

/-- A row sum spread back over its row, read at (r, k): the sum of the row's entries. -/
theorem rowsum_apply (W : FVec Ideal S256x4096 .f32) (acc : BitVec 32) (h : S256x4096.Reduces [1] S256)
    (hφ : FKind.Formats .f32) (hacc : acc = FKind.add.neutral .f32 hφ)
    (hc : S256.ShapeCasts S256x1) (hb : S256x1.Broadcasts S256x4096) (r : Fin 256) (k : Fin 4096) :
    broadcastTo S256x4096 (shapeCast S256x1 (multiReduction .add [1] S256 W acc h hφ hacc) hc) hb (ix2 r k)
      = ∑ k' : Fin 4096, W (ix2 r k') :=
  (Cert.Lib.broadcastTo_a1_ab_apply _ hb r k).trans
    ((Cert.Lib.shapeCast_a_a1_apply _ hc r (0 : Fin 1)).trans (Cert.Lib.multiReduction_add_row W acc h hφ hacc r))

/-- The kernel's product of the weights with the features has the plain dimension numbers. -/
theorem dot_eq_plain : dot_S256x4096_S4096x3_S256x3_1_0_0_1_n_n = DotDims.plain 256 4096 3 := rfl

/-- The product into the zero accumulator read at (r, f). -/
theorem matmul_rf {φ₁ φ₂ : FTy} (l : FVec Ideal S256x4096 φ₁) (rr : FVec Ideal S4096x3 φ₂) (r : Fin 256) (f : Fin 3) :
    matmul dot_S256x4096_S4096x3_S256x3_1_0_0_1_n_n none l rr (constant S256x3 .f32 0x00000000#32) (ix2 r f)
      = ∑ k : Fin 4096, l (ix2 r k) * rr (ix2 k f) := by
  rw [dot_eq_plain]
  exact Cert.Lib.plain_matmul_zero_apply 256 4096 3 none l rr r f

/-- The ELU select read at (r, f). -/
theorem elu_apply (V : FVec Ideal S256x3 .f32) (r : Fin 256) (f : Fin 3) :
    select (cmpf .ogt V (broadcast S256x3 (Scalar.ofBits (F := Ideal) .f32 0x00000000#32))) V
        (subf (exp V) (broadcast S256x3 (Scalar.ofBits (F := Ideal) .f32 0x3F800000#32))) (ix2 r f)
      = eluK (V (ix2 r f)) := rfl

/-- The output block at (0, r, f) for any contents of the two scratch buffers: the ELU of the weighted feature sum of row r,
each weight divided by the row's sum of weights. -/
theorem pay5_gen (x0 : Vec Ideal S1x256x4096 .i32) (M : Vec Ideal S256x1 .f32) (P : Vec Ideal S256x4096 .f32)
    (hh : Vec Ideal S4096x3 .f32) (r : Fin 256) (f : Fin 3) :
    k0_pay5 (F := Ideal) x0 M P hh (ix3 (0 : Fin 1) r f)
      = eluK (∑ k : Fin 4096, Ideal.div (wSel x0 M P r k) (∑ k' : Fin 4096, wSel x0 M P r k') * hh (ix2 k f)) := by
  unfold k0_pay5
  refine (shapeCast_ab_1ab_apply _ _ (0 : Fin 1) r f).trans ?_
  refine (elu_apply _ r f).trans ?_
  refine congrArg eluK ?_
  refine (matmul_rf _ _ r f).trans ?_
  refine Finset.sum_congr rfl fun k _ => ?_
  rw [truncf_apply, truncf_apply, divf_apply, shapeCast_self hh]
  refine congrArg (fun t => t * hh (ix2 k f)) ?_
  refine (congrArg (fun t => Ideal.div t _) (sel_apply x0 M P _ _ _ r k)).trans ?_
  refine congrArg (fun t => Ideal.div (wSel x0 M P r k) t) ?_
  refine (rowsum_apply _ _ _ _ _ _ _ r k).trans ?_
  exact Finset.sum_congr rfl fun k' _ => sel_apply x0 M P _ _ _ r k'

/-- With the scratch buffers holding what the first graph's pass stored, a weight is the specification's. -/
theorem wSel_eq (x0 : Vec Ideal S1x256x4096 .i32) (s : Vec Ideal S256x1 .f32) (d : Vec Ideal S1x4096 .f32) (r : Fin 256) :
    wSel x0 (k0_pay3 (F := Ideal) s d) (k0_pay4 (F := Ideal) s d) r
      = wK (fun j : Fin 4096 => s (ix2 r (0 : Fin 1)) + d (ix2 (0 : Fin 1) j))
          (fun j : Fin 4096 => IntOp.cmpi .sgt (x0 (ix3 (0 : Fin 1) r j)) 0#32) := by
  funext k
  unfold wSel wK
  rw [pay4_apply, pay3_eq, pay2_apply]

/-- THE OUTPUT BLOCK at (0, r, f), the scratch buffers holding the stored row maxima and shifted exponentials: the
specification's entry for the scores of row r, the presence bits of the block's row and feature f of every node. -/
theorem pay5_apply (x0 : Vec Ideal S1x256x4096 .i32) (s : Vec Ideal S256x1 .f32) (d : Vec Ideal S1x4096 .f32) (hh : Vec Ideal S4096x3 .f32)
    (r : Fin 256) (f : Fin 3) :
    k0_pay5 (F := Ideal) x0 (k0_pay3 (F := Ideal) s d) (k0_pay4 (F := Ideal) s d) hh (ix3 (0 : Fin 1) r f)
      = Cert.Gat.kOut (fun j : Fin 4096 => s (ix2 r (0 : Fin 1)) + d (ix2 (0 : Fin 1) j))
          (fun j : Fin 4096 => IntOp.cmpi .sgt (x0 (ix3 (0 : Fin 1) r j)) 0#32)
          (fun j : Fin 4096 => hh (ix2 j f)) := by
  refine (pay5_gen x0 _ _ hh r f).trans ?_
  rw [wSel_eq]
  rfl

end Cert.KernelIdeal.KerPay

end
-- ==== Proof.KerLayer.lean ====
/-
  The output array after the pallas_call, entry by entry.

  Entry `(b, R, f)` is the graph-attention entry (in the form with the shift by the unmasked row maximum) of the score row
  `src[R] + dst[·]`, the edges `adj[b, R, ·] > 0` and the feature column `h[·, f]`, all read from the arrays as the region finds
  them. Point `t` writes back exactly the entries of its block, and the blocks tile the array.
-/
import proofs.«121383_j73821897883807_2_alg».proof.Proof.KerValue
import proofs.«121383_j73821897883807_2_alg».proof.Proof.KerCover
import proofs.«121383_j73821897883807_2_alg».proof.Proof.KerPay

noncomputable section

open Idealize.ShloMosaic Idealize.ShloMosaic.TcCoe Idealize.SL.Sem Idealize.ShloMosaic.ValueIdx
open Idealize.ShloMosaic.Pipeline (Dat)

namespace Cert.KernelIdeal.KerLayer

open Cert.KernelIdeal Cert.KernelIdeal.Gen Cert.KernelIdeal.KerBlocks Cert.KernelIdeal.KerCover

variable (m : (ℓ : Loc nD τ sig) → Buf (Elt Ideal) ℓ)

/-- The four arrays the pallas_call reads, as the region finds them. -/
def adjV (c : Dev nD) : S4x4096x4096.Idx → BitVec 32 := V m c main_arg0
def srcV (c : Dev nD) : S4096x1.Idx → EReal := V m c main_v2
def dstV (c : Dev nD) : S1x4096.Idx → EReal := V m c main_v5
def featV (c : Dev nD) : S4096x3.Idx → EReal := V m c main_v0

/-- Entry `(b, R, f)` of the layer, from the arrays the region finds. -/
def entryV (c : Dev nD) (b : Fin 4) (R : Fin 4096) (f : Fin 3) : EReal :=
  Cert.Gat.kOut (fun j : Fin 4096 => srcV m c (ix2 R (0 : Fin 1)) + dstV m c (ix2 (0 : Fin 1) j))
    (fun j : Fin 4096 => IntOp.cmpi .sgt (adjV m c (ix3 b R j)) 0#32)
    (fun j : Fin 4096 => featV m c (ix2 j f))

/-- The layer as an array. -/
def layerV (c : Dev nD) : S4x4096x3.Idx → EReal := fun i => entryV m c (i 0) (i 1) (i 2)

theorem layerV_apply (c : Dev nD) (b : Fin 4) (R : Fin 4096) (f : Fin 3) : layerV m c (ix3 b R f) = entryV m c b R f := rfl

theorem blk_ext {X Y : S1x256x3.Idx → EReal}
    (h : ∀ (r : Fin 256) (f : Fin 3), X (ix3 (0 : Fin 1) r f) = Y (ix3 (0 : Fin 1) r f)) : X = Y := by
  funext y
  obtain ⟨u, r, f, rfl⟩ : ∃ (u : Fin 1) (r : Fin 256) (f : Fin 3), y = ix3 u r f := ⟨y 0, y 1, y 2, eq_ix3 y⟩
  obtain rfl : u = 0 := Subsingleton.elim _ _
  exact h r f

/-- A block of values that agrees entry by entry with an array is what a write-back of it writes. -/
theorem flushed_ext (t : Fin cfg0.N) (X : S1x256x3.Idx → EReal) (G : S4x4096x3.Idx → EReal)
    (h : ∀ (r : Fin 256) (f : Fin 3), X (ix3 (0 : Fin 1) r f) = G (ix3 (graphOf t) (rowOf t r) f)) :
    (cfg0.win 4).cut (grid0.coords t) X = ((cfg0.win 4).blk t).view.read (Elt Ideal) G := by
  refine blk_ext (fun r f => ?_)
  show X (ix3 (0 : Fin 1) r f) = G (((cfg0.win 4).blk t).view.emb (ix3 (0 : Fin 1) r f))
  rw [emb4 t 0 r f]
  exact h r f

/-- WHAT POINT `t` WRITES BACK is block `t` of the layer. -/
theorem flushed_eq (c : Dev nD) (t : Fin cfg0.N) :
    (dats m 0 c).flushed 4 t = ((cfg0.win 4).blk t).view.read (Elt Ideal) (layerV m c) := by
  show (cfg0.win 4).cut (grid0.coords t) ((dats m 0 c).after 4 t) = _
  rw [after0_4, KerValue.out_eq]
  refine flushed_ext t _ _ (fun r f => ?_)
  rw [layerV_apply]
  refine (KerPay.pay5_apply (iblk m c 0 t) (iblk m c 1 t) (iblk m c 2 t) (iblk m c 3 t) r f).trans ?_
  unfold entryV adjV srcV dstV featV
  simp only [iblk0_apply m c t, iblk1_apply m c t, iblk2_apply m c t, iblk3_apply m c t]

/-- THE OUTPUT ARRAY after the run is the layer. -/
theorem final (c : Dev nD) : (dats m 0 c).arrAt 4 cfg0.N = layerV m c :=
  (dats m 0 c).arrAt_eq_of_cover 4 (layerV m c) (fun t _ => flushed_eq m c t) cover4

end Cert.KernelIdeal.KerLayer

end
-- ==== Proof.LibRowCol.lean ====
/-
  Two column forms read at an index.

  * An `[a, 1]` column transposed to a `[1, a]` row reads, at `(0, j)`, the column's entry `j`.
  * A sum of an `[a, 1]` column over its first axis, on the extended reals, is the sum of the column's entries.

  With a row spread down the rows and a per-row quantity cast to a column they read a per-column quantity spread over
  all rows, and a column of per-row sums added up.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.Lib

open Idealize.ShloMosaic Idealize.ShloMosaic.ValueIdx

variable {α : Type}

/-- An `[a, 1]` column transposed to a `[1, a]` row reads, at `(u, j)`, the operand at `(j, 0)`. -/
theorem transpose_a1_1a_apply {a : ℕ} (x : (⟨2, ![a, 1]⟩ : Shape).Idx → α)
    (h : (⟨2, ![a, 1]⟩ : Shape).Transposes [1, 0] ⟨2, ![1, a]⟩) (u : Fin 1) (j : Fin a) :
    transpose ⟨2, ![1, a]⟩ [1, 0] x h (ix2 u j) = x (ix2 j (0 : Fin 1)) := by
  refine transpose_apply [1, 0] x h (ix2 u j) (ix2 j (0 : Fin 1)) fun b => ?_
  match b with
  | ⟨0, _⟩ =>
    show (0 : ℕ) = u.val
    have := u.isLt; omega
  | ⟨1, _⟩ => rfl

/-- Over the one result index, the source index with `k` on the reduced first axis of a column is `(k, 0)`. -/
theorem lift_col {a : ℕ} (h : (⟨2, ![a, 1]⟩ : Shape).Reduces [0] ⟨1, ![1]⟩) (u : Fin 1) (k : Fin a) :
    h.lift (ix1 u) k = ix2 k (0 : Fin 1) := by
  funext c
  apply Fin.ext
  match c with
  | ⟨0, _⟩ => rfl
  | ⟨1, hc⟩ =>
    have h1 : ((h.lift (ix1 u) k) ⟨1, hc⟩).val < 1 := ((h.lift (ix1 u) k) ⟨1, hc⟩).isLt
    show ((h.lift (ix1 u) k) ⟨1, hc⟩).val = 0
    omega

/-- A column sum: the sum of the column's entries. -/
theorem multiReduction_add_col {a : ℕ} {φ : FTy} (X : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction .add [0] ⟨1, ![1]⟩ X acc h hφ hacc (ix1 u) = ∑ k : Fin a, X (ix2 k (0 : Fin 1)) := by
  refine (Ideal.multiReduction_add_single X acc h hφ hacc (ix1 u)).trans ?_
  exact Finset.sum_congr rfl fun k _ => congrArg X (lift_col h u k)

end Cert.Lib

end
-- ==== Proof.KerPre.lean ====
/-
  Two facts the kernel side of the graph-attention layer needs.

  * The three host values the kernel's program computes before its region, read at an index: the node features
    `ent_emb · W` at `(i, f)` are `Σ_k ent_emb[i,k]·W[k,f]`; the source column at `(i, 0)` is the features of node `i`
    against the first three attention weights; the destination row at `(0, j)` is the features of node `j` against the
    last three attention weights (a column, transposed to a row).
  * Finiteness out of the precondition: the precondition says of every float argument that all its entries have absolute
    value below `+∞`; on the extended reals that excludes `⊥` and `⊤`, so every entry is a real number.
-/
import proofs.«121383_j73821897883807_2_alg».proof.Proof.Gen.KernelIdeal
import proofs.«121383_j73821897883807_2_alg».proof.Proof.Gen.Pre_finite_inputs
import proofs.«121383_j73821897883807_2_alg».proof.Proof.GatSpec
import proofs.«121383_j73821897883807_2_alg».proof.Proof.LibPlainDot
import proofs.«121383_j73821897883807_2_alg».proof.Proof.LibRowCol
import Idealize.ShloMosaic.Lib.ReduceAll
import Idealize.ShloMosaic.Lib.Pipeline.Value
import Idealize.ShloMosaic.Lib.ValueIdx

noncomputable section

open scoped BigOperators

/-! ## The host values before the region, read at an index -/

namespace Cert.KernelIdeal.KerPre

open Cert.KernelIdeal Cert.KernelIdeal.Gen Idealize.ShloMosaic Idealize.ShloMosaic.ValueIdx Cert.Gat

/-- The dimension numbers of `ent_emb · W` are those of a plain `4096×64` by `64×3` product. -/
theorem dot_feat_plain : dot_S4096x64_S64x3_S4096x3_1_0_0_1_n_n = DotDims.plain 4096 64 3 := rfl

/-- The dimension numbers of features times a weight column are those of a plain `4096×3` by `3×1` product. -/
theorem dot_col_plain : dot_S4096x3_S3x1_S4096x1_1_0_0_1_n_n = DotDims.plain 4096 3 1 := rfl

/-- The node features at `(i, f)`. -/
theorem featK_apply (a1 : FVec Ideal S4096x64 .f32) (a2 : FVec Ideal S64x3 .f32) (i : Fin 4096) (f : Fin 3) :
    Host.dotGeneral (F := Ideal) dot_S4096x64_S64x3_S4096x3_1_0_0_1_n_n none a1 a2 (ix2 i f) = feat a1 a2 i f := by
  rw [dot_feat_plain]
  exact Cert.Lib.plain_dotGeneral_apply 4096 64 3 none a1 a2 i f

/-- Rows `0..2` of the attention vector: entry `k` of the slice is entry `k` of the vector. -/
theorem sliceLo_apply (a3 : FVec Ideal S6x1 .f32) (k : Fin 3) :
    extractStridedSlice S3x1 ![0, 0] a3 slices_S6x1_S3x1_0_0 (ix2 k (0 : Fin 1))
      = a3 (ix2 (⟨k.val, by omega⟩ : Fin 6) (0 : Fin 1)) := by
  refine extractStridedSlice_apply ![0, 0] a3 slices_S6x1_S3x1_0_0 (ix2 k (0 : Fin 1))
    (ix2 (⟨k.val, by omega⟩ : Fin 6) (0 : Fin 1)) fun a => ?_
  match a with
  | ⟨0, _⟩ => show k.val = 0 + k.val; omega
  | ⟨1, _⟩ => rfl

/-- Rows `3..5` of the attention vector: entry `k` of the slice is entry `3 + k` of the vector. -/
theorem sliceHi_apply (a3 : FVec Ideal S6x1 .f32) (k : Fin 3) :
    extractStridedSlice S3x1 ![3, 0] a3 slices_S6x1_S3x1_3_0 (ix2 k (0 : Fin 1))
      = a3 (ix2 (⟨3 + k.val, by omega⟩ : Fin 6) (0 : Fin 1)) := by
  refine extractStridedSlice_apply ![3, 0] a3 slices_S6x1_S3x1_3_0 (ix2 k (0 : Fin 1))
    (ix2 (⟨3 + k.val, by omega⟩ : Fin 6) (0 : Fin 1)) fun a => ?_
  match a with
  | ⟨0, _⟩ => rfl
  | ⟨1, _⟩ => rfl

/-- The source column at `(i, 0)`. -/
theorem srcK_apply (a1 : FVec Ideal S4096x64 .f32) (a2 : FVec Ideal S64x3 .f32) (a3 : FVec Ideal S6x1 .f32) (i : Fin 4096) :
    Host.dotGeneral (F := Ideal) dot_S4096x3_S3x1_S4096x1_1_0_0_1_n_n none
        (Host.dotGeneral (F := Ideal) dot_S4096x64_S64x3_S4096x3_1_0_0_1_n_n none a1 a2)
        (extractStridedSlice S3x1 ![0, 0] a3 slices_S6x1_S3x1_0_0) (ix2 i (0 : Fin 1)) = srcS a1 a2 a3 i := by
  rw [dot_col_plain]
  refine (Cert.Lib.plain_dotGeneral_apply 4096 3 1 none _ _ i (0 : Fin 1)).trans ?_
  unfold srcS
  exact Finset.sum_congr rfl fun k _ => by rw [featK_apply, sliceLo_apply]

/-- The destination column at `(j, 0)`, before the transpose. -/
theorem dstK_apply (a1 : FVec Ideal S4096x64 .f32) (a2 : FVec Ideal S64x3 .f32) (a3 : FVec Ideal S6x1 .f32) (j : Fin 4096) :
    Host.dotGeneral (F := Ideal) dot_S4096x3_S3x1_S4096x1_1_0_0_1_n_n none
        (Host.dotGeneral (F := Ideal) dot_S4096x64_S64x3_S4096x3_1_0_0_1_n_n none a1 a2)
        (extractStridedSlice S3x1 ![3, 0] a3 slices_S6x1_S3x1_3_0) (ix2 j (0 : Fin 1)) = dstS a1 a2 a3 j := by
  rw [dot_col_plain]
  refine (Cert.Lib.plain_dotGeneral_apply 4096 3 1 none _ _ j (0 : Fin 1)).trans ?_
  unfold dstS
  exact Finset.sum_congr rfl fun k _ => by rw [featK_apply, sliceHi_apply]

/-- The destination row at `(0, j)`. -/
theorem dstTK_apply (a1 : FVec Ideal S4096x64 .f32) (a2 : FVec Ideal S64x3 .f32) (a3 : FVec Ideal S6x1 .f32) (j : Fin 4096) :
    transpose S1x4096 [1, 0]
        (Host.dotGeneral (F := Ideal) dot_S4096x3_S3x1_S4096x1_1_0_0_1_n_n none
          (Host.dotGeneral (F := Ideal) dot_S4096x64_S64x3_S4096x3_1_0_0_1_n_n none a1 a2)
          (extractStridedSlice S3x1 ![3, 0] a3 slices_S6x1_S3x1_3_0))
        transposes_S4096x1_S1x4096_1_0 (ix2 (0 : Fin 1) j) = dstS a1 a2 a3 j :=
  (Cert.Lib.transpose_a1_1a_apply _ transposes_S4096x1_S1x4096_1_0 (0 : Fin 1) j).trans (dstK_apply a1 a2 a3 j)

end Cert.KernelIdeal.KerPre

/-! ## Finiteness out of the precondition -/

namespace Cert.Pre_finite_inputs.Real

open Cert.Pre_finite_inputs Idealize.ShloMosaic Idealize.ShloMosaic.ValueIdx

/-- On the extended reals `|x| < +∞` (the absolute value as `max x (-x)`, `+∞` as the f32 pattern `0x7F800000`) excludes
    `⊥` and `⊤`: both have absolute value `⊤`, which is not below `⊤`. What is left is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exfalso; simp [Ideal.cmp] at h
  | coe r => exact ⟨r, rfl⟩
  | top => exfalso; simp [Ideal.cmp] at h

/-- One answer of the precondition: if the `and` over all entries of `|x| < +∞` is 1, every entry of `x` is a real. The
    reduction is over all axes, so its result has one index and every entry reduces into it. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) (i : s.Idx) : ∃ r : ℝ, x i = (r : EReal) := by
  have h1 := Host.reduce_andi_eq_one _ _ hr hu ix0 e i (funext fun d => d.elim0)
  have h2 : Ideal.cmp .olt (max (x i) (-(x i))) (Ideal.ofBits .f32 0x7F800000#32) = 1#1 := h1
  exact real_of_abs_lt (x i) h2

/-- THE PRECONDITION DECODED for the three arguments the attention layer reads: the precondition is the `and` of five
    answers, one per float argument, nested to the left; the first three say that the node embeddings, the feature weights
    and the attention vector have real entries. -/
theorem real_of_pre [Cert.Pre_finite_inputs.Facts] (a0 : IVec Cert.Pre_finite_inputs.S4x4096x4096 32) (a1 : FVec Ideal Cert.Pre_finite_inputs.S4096x64 .f32)
    (a2 : FVec Ideal Cert.Pre_finite_inputs.S64x3 .f32) (a3 : FVec Ideal Cert.Pre_finite_inputs.S6x1 .f32) (a4 : FVec Ideal Cert.Pre_finite_inputs.S100x12288 .f32)
    (a5 : FVec Ideal Cert.Pre_finite_inputs.S100 .f32)
    (h : Cert.Pre_finite_inputs.fn (F := Ideal) a0 a1 a2 a3 a4 a5 = (fun _ => 1#1)) :
    (∀ i, ∃ r : ℝ, a1 i = (r : EReal)) ∧ (∀ i, ∃ r : ℝ, a2 i = (r : EReal)) ∧ (∀ i, ∃ r : ℝ, a3 i = (r : EReal)) := by
  have e := congrFun h ix0
  dsimp only [fn, fn_part1] at e
  obtain ⟨e1234, -⟩ := IntOp.andi_eq_one.1 e
  obtain ⟨e123, -⟩ := IntOp.andi_eq_one.1 e1234
  obtain ⟨e12, e3⟩ := IntOp.andi_eq_one.1 e123
  obtain ⟨e1, e2⟩ := IntOp.andi_eq_one.1 e12
  exact ⟨all_real a1 _ _ _ e1, all_real a2 _ _ _ e2, all_real a3 _ _ _ e3⟩

end Cert.Pre_finite_inputs.Real

end
-- ==== Proof.KerTerm.lean ====
/-
  The kernel program's linear head as one term: the layer output flattened to [4, 12288], times the transposed head weights,
  plus the bias broadcast over the four graphs.
-/
import proofs.«121383_j73821897883807_2_alg».proof.Proof.Gen.KernelIdeal
import Idealize.ShloMosaic.PureOps.Ideal

noncomputable section

namespace Cert.KernelIdeal.KerTerm

open Cert.KernelIdeal Cert.KernelIdeal.Gen Idealize.ShloMosaic

variable {F : FTy → Type} [FloatOps F]

/-- The linear head on the flattened layer output. -/
def headK (x : FVec F S4x4096x3 .f32) (a4 : FVec F S100x12288 .f32) (a5 : FVec F S100 .f32) : FVec F S4x100 .f32 :=
  addf
    (Host.dotGeneral dot_S4x12288_S12288x100_S4x100_1_0_0_1_n_n none
      (fun i => shapeCast S4x12288 x shapeCasts_S4x4096x3_S4x12288 i)
      (transpose S12288x100 [1, 0] a4 transposes_S100x12288_S12288x100_1_0))
    (broadcastInDim S4x100 ![0, 1] bcast_S1x100_S4x100_0_1 (broadcastInDim S1x100 ![1] bcast_S100_S1x100_1 a5))

end Cert.KernelIdeal.KerTerm

end
-- ==== Proof.RefTerm.lean ====
/-
  The reference program's result as one term of its arguments, cut into named stages.

  `featR` is the node features `ent_emb · W`; `srcR` and `dstTR` the two halves of the attention vector applied to them (a
  column over the rows, a row over the columns); `scoresR` the leaky-ReLU pair scores; `maskedR` the scores with absent edges
  filled; `attR` the row softmax of the masked scores; `aggR` the attention-weighted sum of the node features; `eluR3` the ELU;
  `midR` the whole graph-attention layer; `headR` the linear head on the flattened layer output.
-/
import proofs.«121383_j73821897883807_2_alg».proof.Proof.Gen.ReferenceIdeal
import Idealize.ShloMosaic.PureOps.Ideal

noncomputable section

namespace Cert.ReferenceIdeal.RefTerm

open Cert.ReferenceIdeal Cert.ReferenceIdeal.Gen Idealize.ShloMosaic

/-- Node features: `ent_emb · W`. -/
def featR (a1 : FVec Ideal S4096x64 .f32) (a2 : FVec Ideal S64x3 .f32) : FVec Ideal S4096x3 .f32 :=
  Host.dotGeneral dot_S4096x64_S64x3_S4096x3_1_0_0_1_n_n none a1 a2

/-- The source half of the score: features times the first three attention weights. -/
def srcR (h : FVec Ideal S4096x3 .f32) (a3 : FVec Ideal S6x1 .f32) : FVec Ideal S4096x1 .f32 :=
  Host.dotGeneral dot_S4096x3_S3x1_S4096x1_1_0_0_1_n_n none h (extractStridedSlice S3x1 ![0, 0] a3 slices_S6x1_S3x1_0_0)

/-- The destination half, as a row: features times the last three attention weights, transposed. -/
def dstTR (h : FVec Ideal S4096x3 .f32) (a3 : FVec Ideal S6x1 .f32) : FVec Ideal S1x4096 .f32 :=
  transpose S1x4096 [1, 0]
    (Host.dotGeneral dot_S4096x3_S3x1_S4096x1_1_0_0_1_n_n none h (extractStridedSlice S3x1 ![3, 0] a3 slices_S6x1_S3x1_3_0))
    transposes_S4096x1_S1x4096_1_0

/-- Pair scores: leaky ReLU (slope 0.2) of source plus destination. -/
def scoresR (src : FVec Ideal S4096x1 .f32) (dstT : FVec Ideal S1x4096 .f32) : FVec Ideal S4096x4096 .f32 :=
  select
    (cmpf .oge
      (addf (broadcastInDim S4096x4096 ![0, 1] bcast_S4096x1_S4096x4096_0_1 src)
        (broadcastInDim S4096x4096 ![0, 1] bcast_S1x4096_S4096x4096_0_1 dstT))
      (broadcastInDim S4096x4096 ![] bcast_S_S4096x4096 (constant S_ .f32 0x00000000#32)))
    (addf (broadcastInDim S4096x4096 ![0, 1] bcast_S4096x1_S4096x4096_0_1 src)
      (broadcastInDim S4096x4096 ![0, 1] bcast_S1x4096_S4096x4096_0_1 dstT))
    (mulf (broadcastInDim S4096x4096 ![] bcast_S_S4096x4096 (id (constant S_ .f32 0x3E4CCCCD#32)))
      (addf (broadcastInDim S4096x4096 ![0, 1] bcast_S4096x1_S4096x4096_0_1 src)
        (broadcastInDim S4096x4096 ![0, 1] bcast_S1x4096_S4096x4096_0_1 dstT)))

/-- The scores of every graph, absent edges filled with 9e-15. -/
def maskedR (a0 : IVec S4x4096x4096 32) (e : FVec Ideal S4096x4096 .f32) : FVec Ideal S4x4096x4096 .f32 :=
  select
    (cmpi .sgt a0 (broadcastInDim S4x4096x4096 ![] bcast_S_S4x4096x4096 (constantI S_ 32 0#32)))
    (broadcastInDim S4x4096x4096 ![0, 1, 2] bcast_S1x4096x4096_S4x4096x4096_0_1_2
      (broadcastInDim S1x4096x4096 ![1, 2] bcast_S4096x4096_S1x4096x4096_1_2 e))
    (broadcastInDim S4x4096x4096 ![] bcast_S_S4x4096x4096 (constant S_ .f32 0x2822212D#32))

/-- Row maxima of the masked scores. -/
def rowMaxR (x : FVec Ideal S4x4096x4096 .f32) : FVec Ideal S4x4096 .f32 :=
  maximumf (broadcastInDim S4x4096 ![] bcast_S_S4x4096 (constant S_ .f32 0xFF800000#32))
    (Host.reduce FloatOps.maximumf x (constant S_ .f32 0xFF800000#32) reducesTo_S4x4096x4096_S4x4096_d2 h_S_)

/-- Shifted exponentials of the masked scores. -/
def expR (x : FVec Ideal S4x4096x4096 .f32) : FVec Ideal S4x4096x4096 .f32 :=
  Host.exp (subf x
    (broadcastInDim S4x4096x4096 ![0, 1, 2] bcast_S4x4096x1_S4x4096x4096_0_1_2
      (broadcastInDim S4x4096x1 ![0, 1] bcast_S4x4096_S4x4096x1_0_1 (rowMaxR x))))

/-- The row softmax. -/
def attR (x : FVec Ideal S4x4096x4096 .f32) : FVec Ideal S4x4096x4096 .f32 :=
  Host.divf (expR x)
    (broadcastInDim S4x4096x4096 ![0, 1, 2] bcast_S4x4096x1_S4x4096x4096_0_1_2
      (broadcastInDim S4x4096x1 ![0, 1] bcast_S4x4096_S4x4096x1_0_1
        (Host.reduceAdd (expR x) (constant S_ .f32 0x00000000#32) reducesTo_S4x4096x4096_S4x4096_d2 h_S_)))

/-- Attention-weighted sums of the node features. -/
def aggR (x : FVec Ideal S4x4096x4096 .f32) (h : FVec Ideal S4096x3 .f32) : FVec Ideal S4x4096x3 .f32 :=
  Host.dotGeneral dot_S4x4096x4096_S4096x3_S4x4096x3_2_0_01_1_n_n none (attR x) h

/-- ELU through `expm1` of the argument clamped to non-positive values. -/
def eluR3 (y : FVec Ideal S4x4096x3 .f32) : FVec Ideal S4x4096x3 .f32 :=
  select
    (cmpf .ogt y (broadcastInDim S4x4096x3 ![] bcast_S_S4x4096x3 (constant S_ .f32 0x00000000#32)))
    y
    (mulf (broadcastInDim S4x4096x3 ![] bcast_S_S4x4096x3 (constant S_ .f32 0x3F800000#32))
      (Host.expm1
        (select
          (cmpf .ogt y (broadcastInDim S4x4096x3 ![] bcast_S_S4x4096x3 (constant S_ .f32 0x00000000#32)))
          (broadcastInDim S4x4096x3 ![] bcast_S_S4x4096x3 (id (constant S_ .f32 0x00000000#32)))
          y)))

/-- The graph-attention layer of the reference. -/
def midR (a0 : IVec S4x4096x4096 32) (a1 : FVec Ideal S4096x64 .f32) (a2 : FVec Ideal S64x3 .f32) (a3 : FVec Ideal S6x1 .f32) :
    FVec Ideal S4x4096x3 .f32 :=
  eluR3 (aggR (maskedR a0 (scoresR (srcR (featR a1 a2) a3) (dstTR (featR a1 a2) a3))) (featR a1 a2))

/-- The linear head on the flattened layer output. -/
def headR (x : FVec Ideal S4x4096x3 .f32) (a4 : FVec Ideal S100x12288 .f32) (a5 : FVec Ideal S100 .f32) : FVec Ideal S4x100 .f32 :=
  addf
    (Host.dotGeneral dot_S4x12288_S12288x100_S4x100_1_0_0_1_n_n none
      (fun i => shapeCast S4x12288 x shapeCasts_S4x4096x3_S4x12288 i)
      (transpose S12288x100 [1, 0] a4 transposes_S100x12288_S12288x100_1_0))
    (broadcastInDim S4x100 ![0, 1] bcast_S1x100_S4x100_0_1 (broadcastInDim S1x100 ![1] bcast_S100_S1x100_1 a5))

end Cert.ReferenceIdeal.RefTerm

end
-- ==== Proof.KerHost.lean ====
/-
  The host operations of the kernel program around its pipelined region, read as terms of the argument arrays.

  Before the region six operations run: the node features `ent_emb · W`, the two halves of the attention vector sliced out
  of `a`, the features against each half, and the transpose of the destination half into a row.  The region then finds
  the features, the source column and the destination row in three of its windows' arrays.  After the region six more
  operations form the linear head on the region's output: flatten, transpose the head weights, multiply, broadcast the
  bias over the four graphs, add.  The head is the same term in both programs.
-/
import proofs.«121383_j73821897883807_2_alg».proof.Proof.Gen.KernelIdeal.Frame
import proofs.«121383_j73821897883807_2_alg».proof.Proof.KerTerm
import proofs.«121383_j73821897883807_2_alg».proof.Proof.RefTerm
import Idealize.ShloMosaic.Lib.StableHlo.Run
import Idealize.ShloMosaic.Lib.Pipeline.Value
import Idealize.ShloMosaic.Lib.Pipeline.FrameSuffix

noncomputable section

namespace Cert.KernelIdeal.KerHost

open Cert.KernelIdeal Cert.KernelIdeal.Gen Cert.KernelIdeal.KerTerm Idealize.ShloMosaic Idealize.ShloMosaic.TcCoe Idealize.SL.Sem

variable {F : FTy → Type} [FloatOps F] (m : (ℓ : Loc nD τ sig) → Buf (Elt F) ℓ)

/-- The region finds the node features `ent_emb · W` in `main_v0`. -/
theorem V_v0 (c : Dev nD) : (V m c main_v0 : S4096x3.Idx → Elt F .f32)
    = Host.dotGeneral dot_S4096x64_S64x3_S4096x3_1_0_0_1_n_n none (m ((c : Thread nD τ).loc main_arg1)) (m ((c : Thread nD τ).loc main_arg2)) := by
  show StableHlo.after hostOps0 (fun b => m (c, b)) (Proc.devRef .tc main_v0) = _
  after_results

/-- The region finds the source column, the features against the first three attention weights, in `main_v2`. -/
theorem V_v2 (c : Dev nD) : (V m c main_v2 : S4096x1.Idx → Elt F .f32)
    = Host.dotGeneral dot_S4096x3_S3x1_S4096x1_1_0_0_1_n_n none
        (Host.dotGeneral dot_S4096x64_S64x3_S4096x3_1_0_0_1_n_n none (m ((c : Thread nD τ).loc main_arg1)) (m ((c : Thread nD τ).loc main_arg2)))
        (extractStridedSlice S3x1 ![0, 0] (m ((c : Thread nD τ).loc main_arg3)) slices_S6x1_S3x1_0_0) := by
  show StableHlo.after hostOps0 (fun b => m (c, b)) (Proc.devRef .tc main_v2) = _
  after_results

/-- The region finds the destination row, the features against the last three attention weights transposed, in `main_v5`. -/
theorem V_v5 (c : Dev nD) : (V m c main_v5 : S1x4096.Idx → Elt F .f32)
    = transpose S1x4096 [1, 0]
        (Host.dotGeneral dot_S4096x3_S3x1_S4096x1_1_0_0_1_n_n none
          (Host.dotGeneral dot_S4096x64_S64x3_S4096x3_1_0_0_1_n_n none (m ((c : Thread nD τ).loc main_arg1)) (m ((c : Thread nD τ).loc main_arg2)))
          (extractStridedSlice S3x1 ![3, 0] (m ((c : Thread nD τ).loc main_arg3)) slices_S6x1_S3x1_3_0))
        transposes_S4096x1_S1x4096_1_0 := by
  show StableHlo.after hostOps0 (fun b => m (c, b)) (Proc.devRef .tc main_v5) = _
  after_results

/-- After the region the program's result is the linear head of the region's output array. -/
theorem tail_v12 (c : Dev nD) :
    Pipeline.afterTail₀ cfgs (dats m) 0 (V0 m) [hostOps1] c main_v12
      = headK ((dats m 0 c).arrAt 4 cfg0.N) (m ((c : Thread nD τ).loc main_arg4)) (m ((c : Thread nD τ).loc main_arg5)) := by
  unfold Pipeline.afterTail₀
  show StableHlo.after hostOps1 _ (Proc.devRef .tc main_v12) = _
  after_results
  have h6 : Pipeline.withArrays (cfgs 0).spec c (V0 m c) (fun w => (dats m 0 c).arrAt w (cfgs 0).N) (Proc.devRef .tc main_v6)
      = (dats m 0 c).arrAt 4 cfg0.N :=
    Pipeline.withArrays_arr spec0 launch0.win.arr_inj c _ _ 4
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  have h5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  rw [h6, h4, h5]
  rfl

/-- The two programs' heads are one term. -/
theorem headK_eq_headR (x : FVec Ideal S4x4096x3 .f32) (a4 : FVec Ideal S100x12288 .f32) (a5 : FVec Ideal S100 .f32) :
    headK (F := Ideal) x a4 a5 = Cert.ReferenceIdeal.RefTerm.headR x a4 a5 := by
  unfold headK Cert.ReferenceIdeal.RefTerm.headR
  rfl

end Cert.KernelIdeal.KerHost

end
-- ==== Proof.KerRun.lean ====
/-
  The kernel program's run, read as a value of its arguments.

  The arrays the pallas_call reads are host products of the arguments (features `ent_emb · W`, source column, destination row),
  so the layer it writes is, entry by entry, the graph-attention entry of the ARGUMENTS; the host operations after the call
  apply the linear head to it.
-/
import proofs.«121383_j73821897883807_2_alg».proof.Proof.KerLayer
import proofs.«121383_j73821897883807_2_alg».proof.Proof.KerPre
import proofs.«121383_j73821897883807_2_alg».proof.Proof.KerHost

noncomputable section

open Idealize.ShloMosaic Idealize.ShloMosaic.TcCoe Idealize.SL.Sem Idealize.ShloMosaic.ValueIdx
open Idealize.ShloMosaic.Pipeline (Dat)

namespace Cert.KernelIdeal.KerRun

open Cert.KernelIdeal Cert.KernelIdeal.Gen

variable (m : (ℓ : Loc nD τ sig) → Buf (Elt Ideal) ℓ) (ρ : Dev nD → PrngReg)

/-- The layer, entry by entry, from the argument arrays. -/
def layerArgs (c : Dev nD) : S4x4096x3.Idx → EReal := fun i =>
  Cert.Gat.layerK (m ((c.tc : Thread nD τ).loc main_arg0)) (m ((c.tc : Thread nD τ).loc main_arg1)) (m ((c.tc : Thread nD τ).loc main_arg2)) (m ((c.tc : Thread nD τ).loc main_arg3)) (i 0) (i 1) (i 2)

/-- The layer read from the region's arrays is the layer of the arguments. -/
theorem layerV_eq (c : Dev nD) : KerLayer.layerV m c = layerArgs m c := by
  funext i
  obtain ⟨b, R, f, rfl⟩ : ∃ (b : Fin 4) (R : Fin 4096) (f : Fin 3), i = ix3 b R f := ⟨i 0, i 1, i 2, eq_ix3 i⟩
  show KerLayer.entryV m c b R f = Cert.Gat.layerK _ _ _ _ b R f
  have hsrc : KerLayer.srcV m c (ix2 R (0 : Fin 1))
      = Cert.Gat.srcS (m ((c.tc : Thread nD τ).loc main_arg1)) (m ((c.tc : Thread nD τ).loc main_arg2)) (m ((c.tc : Thread nD τ).loc main_arg3)) R := by
    unfold KerLayer.srcV; rw [KerHost.V_v2 m c]; exact KerPre.srcK_apply _ _ _ R
  have hdst : ∀ j : Fin 4096, KerLayer.dstV m c (ix2 (0 : Fin 1) j)
      = Cert.Gat.dstS (m ((c.tc : Thread nD τ).loc main_arg1)) (m ((c.tc : Thread nD τ).loc main_arg2)) (m ((c.tc : Thread nD τ).loc main_arg3)) j := fun j => by
    unfold KerLayer.dstV; rw [KerHost.V_v5 m c]; exact KerPre.dstTK_apply _ _ _ j
  have hfeat : ∀ (j : Fin 4096) (g : Fin 3), KerLayer.featV m c (ix2 j g)
      = Cert.Gat.feat (m ((c.tc : Thread nD τ).loc main_arg1)) (m ((c.tc : Thread nD τ).loc main_arg2)) j g := fun j g => by
    unfold KerLayer.featV; rw [KerHost.V_v0 m c]; exact KerPre.featK_apply _ _ j g
  have hadj : KerLayer.adjV m c = (m ((c.tc : Thread nD τ).loc main_arg0)) := V_main_arg0 m c
  unfold KerLayer.entryV Cert.Gat.layerK
  simp only [hsrc, hdst, hfeat, hadj]

/-- Every weakly fair execution of the kernel program ends with the linear head of the layer in its result and the
    arguments unchanged. -/
theorem run : θ_run (defs (F := Ideal)) (onTc (τ := τ) (main (F := Ideal))) ⟨m, fun _ => 0, ρ⟩ fun r => ∀ c : Dev nD,
      r.2.mem ((c.tc : Thread nD τ).loc main_v12) = KerTerm.headK (F := Ideal) (layerArgs m c) (m ((c.tc : Thread nD τ).loc main_arg4)) (m ((c.tc : Thread nD τ).loc main_arg5))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5)) :=
  (θ_run defs _ _).mono (fun _ h c =>
    ⟨((h c).2 main_v12 (Pipeline.mem_restRefs_of main_v12 (by decide) (by decide))).trans
        ((KerHost.tail_v12 m c).trans (by rw [KerLayer.final m c, layerV_eq m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KerRun

end
-- ==== Proof.LibTRefCast.lean ====
/-
  A typed reference's two transports cancel.

  A reference that carries the type `T` of the tensor value it holds moves contents at `T` to contents at the buffer's
  own type and back along the equation between the two types. Going there and back is the identity, whatever the
  reference: the equation can be taken to be `rfl`. General in the signature, the value type and the contents.
-/
import Idealize.ShloMosaic.Lib.StableHlo

namespace Cert.Lib

open Idealize.ShloMosaic Idealize.ShloMosaic.StableHlo

/-- Contents moved to the buffer's type and back are the contents. -/
theorem ofBuf_toBuf {sig : RefSig} {Val : EltTy → Type} {T : BufTy} (x : TRef sig T) (v : T.Contents Val) :
    x.ofBuf (x.toBuf v) = v := by
  obtain ⟨r, rfl, _, _⟩ := x
  rfl

/-- Contents moved from the buffer's type and back are the contents. -/
theorem toBuf_ofBuf {sig : RefSig} {Val : EltTy → Type} {T : BufTy} (x : TRef sig T) (v : x.ref.ty.Contents Val) :
    x.toBuf (x.ofBuf v) = v := by
  obtain ⟨r, rfl, _, _⟩ := x
  rfl

end Cert.Lib
-- ==== Proof.RefRun.lean ====
/-
  The reference program's run, read back as one term of its arguments.

  The program is a straight line of host operations once the calls of its outlined functions (the leaky ReLU and the
  selection inside it, the masking selection, the ELU and the two selections inside it) are replaced by the callees'
  bodies over the calls' own buffers: sixty-one operations. Every weakly fair execution terminates with the result buffer
  holding the linear head applied to the graph-attention layer of the arguments, and with the arguments unchanged.
-/
import proofs.«121383_j73821897883807_2_alg».proof.Proof.Gen.ReferenceIdeal
import proofs.«121383_j73821897883807_2_alg».proof.Proof.RefTerm
import proofs.«121383_j73821897883807_2_alg».proof.Proof.LibTRefCast
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe
  Idealize.SL.Sem Idealize.ShloMosaic.StableHlo

section Generic

variable {F : FTy → Type} [FloatOps F]

/-- The program's sixty-one operations in order, each call replaced by its callee's operations over the call's buffers:
    ten up to the slope constant; the leaky ReLU's seven (the last the selection); five up to the fill constant; the
    masking selection's three; fifteen of the softmax and the weighted sum; the ELU's fifteen (three of them the inner
    selection, the last the outer one); six of the linear head. -/
abbrev ops : List (HloOp τ sig (Elt F)) :=
  [ binary main_arg1 main_arg2 main_v0 ((fun l r => Host.dotGeneral dot_S4096x64_S64x3_S4096x3_1_0_0_1_n_n none l r) : (⟨S4096x64, .f32⟩ : BufTy).Contents (Elt F) → (⟨S64x3, .f32⟩ : BufTy).Contents (Elt F) → (⟨S4096x3, .f32⟩ : BufTy).Contents (Elt F)),
    unary main_arg3 main_v1 ((extractStridedSlice S3x1 ![0, 0] · slices_S6x1_S3x1_0_0) : (⟨S6x1, .f32⟩ : BufTy).Contents (Elt F) → (⟨S3x1, .f32⟩ : BufTy).Contents (Elt F)),
    binary main_v0 main_v1 main_v2 ((fun l r => Host.dotGeneral dot_S4096x3_S3x1_S4096x1_1_0_0_1_n_n none l r) : (⟨S4096x3, .f32⟩ : BufTy).Contents (Elt F) → (⟨S3x1, .f32⟩ : BufTy).Contents (Elt F) → (⟨S4096x1, .f32⟩ : BufTy).Contents (Elt F)),
    unary main_arg3 main_v3 ((extractStridedSlice S3x1 ![3, 0] · slices_S6x1_S3x1_3_0) : (⟨S6x1, .f32⟩ : BufTy).Contents (Elt F) → (⟨S3x1, .f32⟩ : BufTy).Contents (Elt F)),
    binary main_v0 main_v3 main_v4 ((fun l r => Host.dotGeneral dot_S4096x3_S3x1_S4096x1_1_0_0_1_n_n none l r) : (⟨S4096x3, .f32⟩ : BufTy).Contents (Elt F) → (⟨S3x1, .f32⟩ : BufTy).Contents (Elt F) → (⟨S4096x1, .f32⟩ : BufTy).Contents (Elt F)),
    unary main_v4 main_v5 ((transpose S1x4096 [1, 0] · transposes_S4096x1_S1x4096_1_0) : (⟨S4096x1, .f32⟩ : BufTy).Contents (Elt F) → (⟨S1x4096, .f32⟩ : BufTy).Contents (Elt F)),
    unary main_v2 main_v6 (broadcastInDim S4096x4096 ![0, 1] bcast_S4096x1_S4096x4096_0_1 : (⟨S4096x1, .f32⟩ : BufTy).Contents (Elt F) → (⟨S4096x4096, .f32⟩ : BufTy).Contents (Elt F)),
    unary main_v5 main_v7 (broadcastInDim S4096x4096 ![0, 1] bcast_S1x4096_S4096x4096_0_1 : (⟨S1x4096, .f32⟩ : BufTy).Contents (Elt F) → (⟨S4096x4096, .f32⟩ : BufTy).Contents (Elt F)),
    binary main_v6 main_v7 main_v8 (addf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x3E4CCCCD#32),
    TRef.nullary main_call0.cst (constant S_ .f32 0x00000000#32),
    TRef.unary main_call0.cst main_call0.v0 (broadcastInDim S4096x4096 ![] bcast_S_S4096x4096),
    TRef.binary (.of main_v8 : TRef sig ⟨S4096x4096, .f32⟩) main_call0.v0 main_call0.v1 (cmpf .oge),
    TRef.unary (.of main_cst : TRef sig ⟨S_, .f32⟩) main_call0.v2 id,
    TRef.unary main_call0.v2 main_call0.v3 (broadcastInDim S4096x4096 ![] bcast_S_S4096x4096),
    TRef.binary main_call0.v3 (.of main_v8 : TRef sig ⟨S4096x4096, .f32⟩) main_call0.v4 mulf,
    TRef.ternary main_call0.v1 (.of main_v8 : TRef sig ⟨S4096x4096, .f32⟩) main_call0.v4 main_call0.call0.v0 select,
    nullary main_c (constantI S_ 32 0#32),
    unary main_c main_v10 (broadcastInDim S4x4096x4096 ![] bcast_S_S4x4096x4096 : (⟨S_, .i32⟩ : BufTy).Contents (Elt F) → (⟨S4x4096x4096, .i32⟩ : BufTy).Contents (Elt F)),
    binary main_arg0 main_v10 main_v11 (cmpi .sgt : (⟨S4x4096x4096, .i32⟩ : BufTy).Contents (Elt F) → (⟨S4x4096x4096, .i32⟩ : BufTy).Contents (Elt F) → (⟨S4x4096x4096, .i1⟩ : BufTy).Contents (Elt F)),
    unary main_v9 main_v12 (broadcastInDim S1x4096x4096 ![1, 2] bcast_S4096x4096_S1x4096x4096_1_2 : (⟨S4096x4096, .f32⟩ : BufTy).Contents (Elt F) → (⟨S1x4096x4096, .f32⟩ : BufTy).Contents (Elt F)),
    nullary main_cst_0 (constant S_ .f32 0x2822212D#32),
    TRef.unary (.of main_v12 : TRef sig ⟨S1x4096x4096, .f32⟩) main_call1.v0 (broadcastInDim S4x4096x4096 ![0, 1, 2] bcast_S1x4096x4096_S4x4096x4096_0_1_2),
    TRef.unary (.of main_cst_0 : TRef sig ⟨S_, .f32⟩) main_call1.v1 (broadcastInDim S4x4096x4096 ![] bcast_S_S4x4096x4096),
    TRef.ternary (.of main_v11 : TRef sig ⟨S4x4096x4096, .i1⟩) main_call1.v0 main_call1.v1 main_call1.v2 select,
    nullary main_cst_1 (constant S_ .f32 0xFF800000#32),
    binary main_v13 main_cst_1 main_v14 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    nullary main_cst_2 (constant S_ .f32 0xFF800000#32),
    unary main_cst_2 main_v15 (broadcastInDim S4x4096 ![] bcast_S_S4x4096 : (⟨S_, .f32⟩ : BufTy).Contents (Elt F) → (⟨S4x4096, .f32⟩ : BufTy).Contents (Elt F)),
    binary main_v15 main_v14 main_v16 (maximumf : (⟨S4x4096, .f32⟩ : BufTy).Contents (Elt F) → (⟨S4x4096, .f32⟩ : BufTy).Contents (Elt F) → (⟨S4x4096, .f32⟩ : BufTy).Contents (Elt F)),
    unary main_v16 main_v17 (broadcastInDim S4x4096x1 ![0, 1] bcast_S4x4096_S4x4096x1_0_1 : (⟨S4x4096, .f32⟩ : BufTy).Contents (Elt F) → (⟨S4x4096x1, .f32⟩ : BufTy).Contents (Elt F)),
    unary main_v17 main_v18 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v13 main_v18 main_v19 (subf : (⟨S4x4096x4096, .f32⟩ : BufTy).Contents (Elt F) → (⟨S4x4096x4096, .f32⟩ : BufTy).Contents (Elt F) → (⟨S4x4096x4096, .f32⟩ : BufTy).Contents (Elt F)),
    unary main_v19 main_v20 (Host.exp : (⟨S4x4096x4096, .f32⟩ : BufTy).Contents (Elt F) → (⟨S4x4096x4096, .f32⟩ : BufTy).Contents (Elt F)),
    nullary main_cst_3 (constant S_ .f32 0x00000000#32),
    binary main_v20 main_cst_3 main_v21 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    unary main_v21 main_v22 (broadcastInDim S4x4096x1 ![0, 1] bcast_S4x4096_S4x4096x1_0_1 : (⟨S4x4096, .f32⟩ : BufTy).Contents (Elt F) → (⟨S4x4096x1, .f32⟩ : BufTy).Contents (Elt F)),
    unary main_v22 main_v23 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v20 main_v23 main_v24 (Host.divf : (⟨S4x4096x4096, .f32⟩ : BufTy).Contents (Elt F) → (⟨S4x4096x4096, .f32⟩ : BufTy).Contents (Elt F) → (⟨S4x4096x4096, .f32⟩ : BufTy).Contents (Elt F)),
    binary main_v24 main_v0 main_v25 ((fun l r => Host.dotGeneral dot_S4x4096x4096_S4096x3_S4x4096x3_2_0_01_1_n_n none l r) : (⟨S4x4096x4096, .f32⟩ : BufTy).Contents (Elt F) → (⟨S4096x3, .f32⟩ : BufTy).Contents (Elt F) → (⟨S4x4096x3, .f32⟩ : BufTy).Contents (Elt F)),
    TRef.nullary main_call2.cst (constant S_ .f32 0x00000000#32),
    TRef.unary main_call2.cst main_call2.v0 (broadcastInDim S4x4096x3 ![] bcast_S_S4x4096x3),
    TRef.binary (.of main_v25 : TRef sig ⟨S4x4096x3, .f32⟩) main_call2.v0 main_call2.v1 (cmpf .ogt),
    TRef.nullary main_call2.cst_0 (constant S_ .f32 0x00000000#32),
    TRef.unary main_call2.cst_0 main_call2.v2 (broadcastInDim S4x4096x3 ![] bcast_S_S4x4096x3),
    TRef.binary (.of main_v25 : TRef sig ⟨S4x4096x3, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S4x4096x3 ![] bcast_S_S4x4096x3),
    TRef.ternary main_call2.v3 main_call2.call0.v1 (.of main_v25 : TRef sig ⟨S4x4096x3, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S4x4096x3 ![] bcast_S_S4x4096x3),
    TRef.binary main_call2.v6 main_call2.v5 main_call2.v7 mulf,
    TRef.ternary main_call2.v1 (.of main_v25 : TRef sig ⟨S4x4096x3, .f32⟩) main_call2.v7 main_call2.call1.v0 select,
    reshape main_v26 main_v27 rfl shapeCasts_S4x4096x3_S4x12288,
    unary main_arg4 main_v28 ((transpose S12288x100 [1, 0] · transposes_S100x12288_S12288x100_1_0) : (⟨S100x12288, .f32⟩ : BufTy).Contents (Elt F) → (⟨S12288x100, .f32⟩ : BufTy).Contents (Elt F)),
    binary main_v27 main_v28 main_v29 ((fun l r => Host.dotGeneral dot_S4x12288_S12288x100_S4x100_1_0_0_1_n_n none l r) : (⟨S4x12288, .f32⟩ : BufTy).Contents (Elt F) → (⟨S12288x100, .f32⟩ : BufTy).Contents (Elt F) → (⟨S4x100, .f32⟩ : BufTy).Contents (Elt F)),
    unary main_arg5 main_v30 (broadcastInDim S1x100 ![1] bcast_S100_S1x100_1 : (⟨S100, .f32⟩ : BufTy).Contents (Elt F) → (⟨S1x100, .f32⟩ : BufTy).Contents (Elt F)),
    unary main_v30 main_v31 (broadcastInDim S4x100 ![0, 1] bcast_S1x100_S4x100_0_1 : (⟨S1x100, .f32⟩ : BufTy).Contents (Elt F) → (⟨S4x100, .f32⟩ : BufTy).Contents (Elt F)),
    binary main_v29 main_v31 main_v32 (addf : (⟨S4x100, .f32⟩ : BufTy).Contents (Elt F) → (⟨S4x100, .f32⟩ : BufTy).Contents (Elt F) → (⟨S4x100, .f32⟩ : BufTy).Contents (Elt F)) ]

-- sixty-one binds re-associated: the rewrite under the chain recurses once per statement
set_option maxRecDepth 4096 in
/-- The program is that straight line: the callees' definitions unfolded at their calls, both sides are one chain of
    steps once sequencing is re-associated. -/
theorem main_eq (c : Dev nD) : main (F := F) c = seq ops := by
  simp only [main, fn_leaky_relu.body, fn_where.body, fn_where_0.body, fn_elu.body, fn_where_1.body, fn_where_2.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., unary_bufs_sub .., binary_bufs_sub .., unary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., binary_bufs_sub .., unary_bufs_sub .., nullary_bufs_sub .., unary_bufs_sub .., unary_bufs_sub ..,
    ternary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., reshape_bufs_sub .., unary_bufs_sub .., binary_bufs_sub .., unary_bufs_sub .., unary_bufs_sub ..,
    binary_bufs_sub ..⟩

/-- For any float values, from any memory with zero counters: every weakly fair execution terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Generic

section Args

variable {F : FTy → Type} [FloatOps F]

/-! No operation writes an argument's buffer: the fold leaves each argument as it was. -/

theorem arg0_eq (V : Valuation τ sig (Elt F)) :
    after (ops (F := F)) V (main_arg0 : DevRef τ sig) = V (main_arg0 : DevRef τ sig) := by
  after_results_simp

theorem arg1_eq (V : Valuation τ sig (Elt F)) :
    after (ops (F := F)) V (main_arg1 : DevRef τ sig) = V (main_arg1 : DevRef τ sig) := by
  after_results_simp

theorem arg2_eq (V : Valuation τ sig (Elt F)) :
    after (ops (F := F)) V (main_arg2 : DevRef τ sig) = V (main_arg2 : DevRef τ sig) := by
  after_results_simp

theorem arg3_eq (V : Valuation τ sig (Elt F)) :
    after (ops (F := F)) V (main_arg3 : DevRef τ sig) = V (main_arg3 : DevRef τ sig) := by
  after_results_simp

theorem arg4_eq (V : Valuation τ sig (Elt F)) :
    after (ops (F := F)) V (main_arg4 : DevRef τ sig) = V (main_arg4 : DevRef τ sig) := by
  after_results_simp

theorem arg5_eq (V : Valuation τ sig (Elt F)) :
    after (ops (F := F)) V (main_arg5 : DevRef τ sig) = V (main_arg5 : DevRef τ sig) := by
  after_results_simp

end Args

attribute [local irreducible] Host.reduce in
set_option maxRecDepth 8192 in
/-- The fold at the result buffer is the linear head of the graph-attention layer of the arguments: each operation's
    result at its own buffer is its function of its operands' contents, a typed reference's two transports cancel, and
    what is left is the stages' composition, term for term. The row reductions stay folded throughout. -/
theorem out_eq (V : Valuation τ sig (Elt Ideal)) :
    after (ops (F := Ideal)) V (main_v32 : DevRef τ sig)
      = headR (midR (V (main_arg0 : DevRef τ sig)) (V (main_arg1 : DevRef τ sig)) (V (main_arg2 : DevRef τ sig))
            (V (main_arg3 : DevRef τ sig)))
          (V (main_arg4 : DevRef τ sig)) (V (main_arg5 : DevRef τ sig)) := by
  after_results_simp
  simp only [Cert.Lib.ofBuf_toBuf, Cert.Lib.toBuf_ofBuf]
  unfold headR midR eluR3 aggR attR expR rowMaxR maskedR scoresR dstTR srcR featR
  rfl

/-- At the ideal instance, from any memory with zero counters: every weakly fair execution of the program terminates
    with the result buffer at the linear head of the graph-attention layer of the arguments' launch contents, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
          = headR (midR (m ((c.tc : Thread nD τ).loc main_arg0)) (m ((c.tc : Thread nD τ).loc main_arg1)) (m ((c.tc : Thread nD τ).loc main_arg2)) (m ((c.tc : Thread nD τ).loc main_arg3)))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v32).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_main m ρ)

end Cert.ReferenceIdeal.RefRun

end
-- ==== Proof.RefRead.lean ====
/-
  The reference's graph-attention layer read at one entry.

  Each named stage of the reference's term is read at an index written by its coordinates: the two matrix products as
  sums over the contracted axis, the keepdims broadcasts as the per-row quantity, the row maximum as a fold of `max`
  over the row, the row sum as the initial zero plus the sum over the row. Chained, the layer's entry `(b, R, f)` is
  the textbook entry `layerR`: ELU of the softmax-weighted sum of feature `f` over the nodes, the softmax taken over
  the masked leaky-ReLU scores of row `R` in graph `b`.
-/
import proofs.«121383_j73821897883807_2_alg».proof.Proof.RefTerm
import proofs.«121383_j73821897883807_2_alg».proof.Proof.GatSpec
import proofs.«121383_j73821897883807_2_alg».proof.Proof.LibPlainDot
import proofs.«121383_j73821897883807_2_alg».proof.Proof.LibRowReduce
import proofs.«121383_j73821897883807_2_alg».proof.Proof.LibRowCol
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Cert.ReferenceIdeal.RefTerm Idealize.ShloMosaic Idealize.ShloMosaic.ValueIdx
open Cert.Gat (feat srcS dstS lreluR scoreR wR rOut layerR)

variable {α : Type}

/-! ## Layout operations of the reference at an index -/

/-- A rank-zero value spread over any shape reads its one entry everywhere. -/
theorem splat_apply {t : Shape} (h : S_.BroadcastsInDim t (![] : Fin 0 → Fin t.rank)) (x : S_.Idx → α) (j : t.Idx) :
    broadcastInDim t ![] h x j = x ix0 :=
  broadcastInDim_apply _ h x j ix0 fun a => a.elim0

/-- A column over the rows spread along the columns reads the row's entry. -/
theorem bcast_col_apply (x : S4096x1.Idx → α) (R j : Fin 4096) :
    broadcastInDim S4096x4096 ![0, 1] bcast_S4096x1_S4096x4096_0_1 x (ix2 R j) = x (ix2 R (0 : Fin 1)) := by
  refine broadcastInDim_apply _ _ x (ix2 R j) (ix2 R (0 : Fin 1)) fun a => ?_
  match a with
  | ⟨0, _⟩ => rfl
  | ⟨1, _⟩ => rfl

/-- A row over the columns spread down the rows reads the column's entry. -/
theorem bcast_row_apply (x : S1x4096.Idx → α) (R j : Fin 4096) :
    broadcastInDim S4096x4096 ![0, 1] bcast_S1x4096_S4096x4096_0_1 x (ix2 R j) = x (ix2 (0 : Fin 1) j) := by
  refine broadcastInDim_apply _ _ x (ix2 R j) (ix2 (0 : Fin 1) j) fun a => ?_
  match a with
  | ⟨0, _⟩ => rfl
  | ⟨1, _⟩ => rfl

/-- A matrix given a leading unit axis reads the matrix. -/
theorem bcast_lead_apply (x : S4096x4096.Idx → α) (u : Fin 1) (R j : Fin 4096) :
    broadcastInDim S1x4096x4096 ![1, 2] bcast_S4096x4096_S1x4096x4096_1_2 x (ix3 u R j) = x (ix2 R j) := by
  refine broadcastInDim_apply _ _ x (ix3 u R j) (ix2 R j) fun a => ?_
  match a with
  | ⟨0, _⟩ => rfl
  | ⟨1, _⟩ => rfl

/-- The unit leading axis spread over the four graphs reads the one matrix. -/
theorem bcast_graphs_apply (x : S1x4096x4096.Idx → α) (b : Fin 4) (R j : Fin 4096) :
    broadcastInDim S4x4096x4096 ![0, 1, 2] bcast_S1x4096x4096_S4x4096x4096_0_1_2 x (ix3 b R j) = x (ix3 (0 : Fin 1) R j) := by
  refine broadcastInDim_apply _ _ x (ix3 b R j) (ix3 (0 : Fin 1) R j) fun a => ?_
  match a with
  | ⟨0, _⟩ => rfl
  | ⟨1, _⟩ => rfl
  | ⟨2, _⟩ => rfl

/-- A per-row quantity given a trailing unit axis reads the quantity. -/
theorem bcast_keep_apply (x : S4x4096.Idx → α) (b : Fin 4) (R : Fin 4096) (u : Fin 1) :
    broadcastInDim S4x4096x1 ![0, 1] bcast_S4x4096_S4x4096x1_0_1 x (ix3 b R u) = x (ix2 b R) := by
  refine broadcastInDim_apply _ _ x (ix3 b R u) (ix2 b R) fun a => ?_
  match a with
  | ⟨0, _⟩ => rfl
  | ⟨1, _⟩ => rfl

/-- The trailing unit axis spread along the row reads the row's one entry. -/
theorem bcast_along_apply (x : S4x4096x1.Idx → α) (b : Fin 4) (R j : Fin 4096) :
    broadcastInDim S4x4096x4096 ![0, 1, 2] bcast_S4x4096x1_S4x4096x4096_0_1_2 x (ix3 b R j) = x (ix3 b R (0 : Fin 1)) := by
  refine broadcastInDim_apply _ _ x (ix3 b R j) (ix3 b R (0 : Fin 1)) fun a => ?_
  match a with
  | ⟨0, _⟩ => rfl
  | ⟨1, _⟩ => rfl
  | ⟨2, _⟩ => rfl

/-- The first three attention weights. -/
theorem slice0_apply (a3 : S6x1.Idx → α) (k : Fin 3) :
    extractStridedSlice S3x1 ![0, 0] a3 slices_S6x1_S3x1_0_0 (ix2 k (0 : Fin 1))
      = a3 (ix2 (⟨k.val, by omega⟩ : Fin 6) (0 : Fin 1)) := by
  refine extractStridedSlice_apply _ a3 _ _ _ fun a => ?_
  match a with
  | ⟨0, _⟩ => show k.val = 0 + k.val; omega
  | ⟨1, _⟩ => rfl

/-- The last three attention weights. -/
theorem slice3_apply (a3 : S6x1.Idx → α) (k : Fin 3) :
    extractStridedSlice S3x1 ![3, 0] a3 slices_S6x1_S3x1_3_0 (ix2 k (0 : Fin 1))
      = a3 (ix2 (⟨3 + k.val, by omega⟩ : Fin 6) (0 : Fin 1)) := by
  refine extractStridedSlice_apply _ a3 _ _ _ fun a => ?_
  match a with
  | ⟨0, _⟩ => rfl
  | ⟨1, _⟩ => rfl

/-! ## The two plain products -/

theorem dot_feat_eq : dot_S4096x64_S64x3_S4096x3_1_0_0_1_n_n = DotDims.plain 4096 64 3 := rfl

theorem dot_col_eq : dot_S4096x3_S3x1_S4096x1_1_0_0_1_n_n = DotDims.plain 4096 3 1 := rfl

/-- The node features at node `i`, feature `f`. -/
theorem featR_apply (a1 : FVec Ideal S4096x64 .f32) (a2 : FVec Ideal S64x3 .f32) (i : Fin 4096) (f : Fin 3) :
    featR a1 a2 (ix2 i f) = feat a1 a2 i f := by
  unfold featR feat
  rw [dot_feat_eq]
  exact Cert.Lib.plain_dotGeneral_apply 4096 64 3 none a1 a2 i f

/-- The source half at node `i`. -/
theorem srcR_apply (h : FVec Ideal S4096x3 .f32) (a3 : FVec Ideal S6x1 .f32) (i : Fin 4096) :
    srcR h a3 (ix2 i (0 : Fin 1)) = ∑ k : Fin 3, h (ix2 i k) * a3 (ix2 (⟨k.val, by omega⟩ : Fin 6) (0 : Fin 1)) := by
  unfold srcR
  rw [dot_col_eq]
  refine (Cert.Lib.plain_dotGeneral_apply 4096 3 1 none h _ i 0).trans ?_
  exact Finset.sum_congr rfl fun k _ => congrArg (fun z => h (ix2 i k) * z) (slice0_apply a3 k)

/-- The destination half at node `j`. -/
theorem dstTR_apply (h : FVec Ideal S4096x3 .f32) (a3 : FVec Ideal S6x1 .f32) (j : Fin 4096) :
    dstTR h a3 (ix2 (0 : Fin 1) j) = ∑ k : Fin 3, h (ix2 j k) * a3 (ix2 (⟨3 + k.val, by omega⟩ : Fin 6) (0 : Fin 1)) := by
  unfold dstTR
  refine (Cert.Lib.transpose_a1_1a_apply _ transposes_S4096x1_S1x4096_1_0 0 j).trans ?_
  rw [dot_col_eq]
  refine (Cert.Lib.plain_dotGeneral_apply 4096 3 1 none h _ j 0).trans ?_
  exact Finset.sum_congr rfl fun k _ => congrArg (fun z => h (ix2 j k) * z) (slice3_apply a3 k)

/-! ## Scores, mask, softmax -/

/-- The pair score of `(R, j)`: the leaky ReLU of the source half of `R` plus the destination half of `j`. -/
theorem scoresR_apply (src : FVec Ideal S4096x1 .f32) (dstT : FVec Ideal S1x4096 .f32) (R j : Fin 4096) :
    scoresR src dstT (ix2 R j) = lreluR (src (ix2 R (0 : Fin 1)) + dstT (ix2 (0 : Fin 1) j)) := by
  unfold scoresR lreluR
  rw [select_apply, cmpf_apply, mulf_apply, addf_apply, bcast_col_apply, bcast_row_apply, splat_apply, splat_apply]
  rfl

/-- The masked score of edge `(R, j)` in graph `b`. -/
theorem maskedR_apply (a0 : IVec S4x4096x4096 32) (e : FVec Ideal S4096x4096 .f32) (b : Fin 4) (R j : Fin 4096) :
    maskedR a0 e (ix3 b R j)
      = Scalar.select (IntOp.cmpi .sgt (a0 (ix3 b R j)) 0#32) (e (ix2 R j)) (Ideal.ofBits .f32 0x2822212D#32) := by
  unfold maskedR
  rw [select_apply, bcast_graphs_apply, bcast_lead_apply, splat_apply]
  rfl

/-- The row maximum of row `(b, R)`: `-∞` joined with the fold of `max` from `-∞` over the row. -/
theorem rowMaxR_apply (x : FVec Ideal S4x4096x4096 .f32) (b : Fin 4) (R : Fin 4096) :
    RefTerm.rowMaxR x (ix2 b R)
      = max (Ideal.ofBits .f32 0xFF800000#32)
          ((Finset.univ : Finset (Fin 4096)).fold max (Ideal.ofBits .f32 0xFF800000#32) fun k => x (ix3 b R k)) := by
  unfold RefTerm.rowMaxR
  rw [maximumf_apply, splat_apply]
  refine congrArg (max _) ?_
  exact Cert.Lib.hostReduce_max_last3 x (constant (F := Ideal) S_ .f32 0xFF800000#32) reducesTo_S4x4096x4096_S4x4096_d2
    (by decide) h_S_ b R

/-- The shifted exponential of entry `(b, R, j)`. -/
theorem expR_apply (x : FVec Ideal S4x4096x4096 .f32) (b : Fin 4) (R j : Fin 4096) :
    expR x (ix3 b R j) = Ideal.exp (x (ix3 b R j) - RefTerm.rowMaxR x (ix2 b R)) := by
  unfold expR Host.exp
  rw [subf_apply, bcast_along_apply, bcast_keep_apply]
  rfl

/-- The row sum of row `(b, R)`: the initial zero plus the sum over the row. -/
theorem rowSum_apply (y : FVec Ideal S4x4096x4096 .f32) (b : Fin 4) (R : Fin 4096) :
    Host.reduceAdd (F := Ideal) y (constant (F := Ideal) S_ .f32 0x00000000#32) reducesTo_S4x4096x4096_S4x4096_d2 h_S_ (ix2 b R)
      = Ideal.ofBits .f32 0x00000000#32 + ∑ k : Fin 4096, y (ix3 b R k) := by
  have hR : S4x4096x4096.Reduces [2] S4x4096 := by decide
  unfold Host.reduceAdd
  rw [Ideal.hostReduceAdd_def]
  refine (Ideal.hostReduceAdd_single reducesTo_S4x4096x4096_S4x4096_d2 hR y _ (ix2 b R)).trans ?_
  refine congrArg (fun z => Ideal.ofBits .f32 0x00000000#32 + z) ?_
  exact Finset.sum_congr rfl fun k _ => congrArg y (Cert.Lib.lift_last3 hR b R k)

/-- The softmax weight of entry `(b, R, j)`. -/
theorem attR_apply (x : FVec Ideal S4x4096x4096 .f32) (b : Fin 4) (R j : Fin 4096) :
    attR x (ix3 b R j)
      = Ideal.div (expR x (ix3 b R j)) (Ideal.ofBits .f32 0x00000000#32 + ∑ k : Fin 4096, expR x (ix3 b R k)) := by
  unfold attR Host.divf
  show FloatOps.hostDivf _ _ = _
  rw [bcast_along_apply, bcast_keep_apply, rowSum_apply]
  rfl

/-! ## The weighted sum and the ELU -/

/-- The contraction of the weighted sum has one axis. -/
theorem agg_contr_rank : dot_S4x4096x4096_S4096x3_S4x4096x3_2_0_01_1_n_n.contr.rank = 1 := rfl

/-- The left operand's index at result `(b, R, f)` and contraction position `k` is `(b, R, k)`. -/
theorem agg_lhsIdx (b : Fin 4) (R : Fin 4096) (f : Fin 3) (k : Fin 4096) :
    dot_S4x4096x4096_S4096x3_S4x4096x3_2_0_01_1_n_n.lhsIdx (ix3 b R f)
        ((contrEquiv1 dot_S4x4096x4096_S4096x3_S4x4096x3_2_0_01_1_n_n 4096 rfl rfl).symm k) = ix3 b R k := by
  funext a
  refine Fin.ext ?_
  match a with
  | ⟨0, _⟩ => rfl
  | ⟨1, _⟩ => rfl
  | ⟨2, _⟩ =>
    show (((contrEquiv1 dot_S4x4096x4096_S4096x3_S4x4096x3_2_0_01_1_n_n 4096 rfl rfl).symm k) ⟨0, (Nat.one_pos : 0 < 1)⟩ : ℕ) = k.val
    exact contrEquiv1_symm_val dot_S4x4096x4096_S4096x3_S4x4096x3_2_0_01_1_n_n 4096 rfl rfl k

/-- The right operand's index at result `(b, R, f)` and contraction position `k` is `(k, f)`. -/
theorem agg_rhsIdx (b : Fin 4) (R : Fin 4096) (f : Fin 3) (k : Fin 4096) :
    dot_S4x4096x4096_S4096x3_S4x4096x3_2_0_01_1_n_n.rhsIdx (ix3 b R f)
        ((contrEquiv1 dot_S4x4096x4096_S4096x3_S4x4096x3_2_0_01_1_n_n 4096 rfl rfl).symm k) = ix2 k f := by
  funext a
  refine Fin.ext ?_
  match a with
  | ⟨0, _⟩ =>
    show (((contrEquiv1 dot_S4x4096x4096_S4096x3_S4x4096x3_2_0_01_1_n_n 4096 rfl rfl).symm k) ⟨0, (Nat.one_pos : 0 < 1)⟩ : ℕ) = k.val
    exact contrEquiv1_symm_val dot_S4x4096x4096_S4096x3_S4x4096x3_2_0_01_1_n_n 4096 rfl rfl k
  | ⟨1, _⟩ => rfl

/-- The weighted sum at `(b, R, f)`: over the nodes `j`, the weight of `(b, R, j)` times feature `f` of node `j`. -/
theorem aggR_apply (x : FVec Ideal S4x4096x4096 .f32) (h : FVec Ideal S4096x3 .f32) (b : Fin 4) (R : Fin 4096) (f : Fin 3) :
    aggR x h (ix3 b R f) = ∑ j : Fin 4096, attR x (ix3 b R j) * h (ix2 j f) := by
  unfold aggR
  refine (Ideal.dotGeneral_apply dot_S4x4096x4096_S4096x3_S4x4096x3_2_0_01_1_n_n none _ (attR x) h (ix3 b R f)).trans ?_
  rw [← Equiv.sum_comp (contrEquiv1 dot_S4x4096x4096_S4096x3_S4x4096x3_2_0_01_1_n_n 4096 rfl rfl).symm]
  exact Finset.sum_congr rfl fun k _ => by rw [agg_lhsIdx, agg_rhsIdx]

/-- The ELU at an entry. -/
theorem eluR3_apply (y : FVec Ideal S4x4096x3 .f32) (b : Fin 4) (R : Fin 4096) (f : Fin 3) :
    eluR3 y (ix3 b R f) = Cert.Gat.eluR (y (ix3 b R f)) := by
  unfold eluR3 Cert.Gat.eluR Host.expm1
  rw [select_apply, cmpf_apply, mulf_apply, splat_apply, splat_apply]
  rfl

/-! ## The layer's entry, from the argument arrays -/

/-- The source half of node `i`'s score from the argument arrays. -/
theorem src_entry (a1 : FVec Ideal S4096x64 .f32) (a2 : FVec Ideal S64x3 .f32) (a3 : FVec Ideal S6x1 .f32) (i : Fin 4096) :
    srcR (featR a1 a2) a3 (ix2 i (0 : Fin 1)) = srcS a1 a2 a3 i := by
  rw [srcR_apply]
  unfold srcS
  exact Finset.sum_congr rfl fun k _ => by rw [featR_apply]

/-- The destination half of node `j`'s score from the argument arrays. -/
theorem dst_entry (a1 : FVec Ideal S4096x64 .f32) (a2 : FVec Ideal S64x3 .f32) (a3 : FVec Ideal S6x1 .f32) (j : Fin 4096) :
    dstTR (featR a1 a2) a3 (ix2 (0 : Fin 1) j) = dstS a1 a2 a3 j := by
  rw [dstTR_apply]
  unfold dstS
  exact Finset.sum_congr rfl fun k _ => by rw [featR_apply]

/-- The masked score of edge `(R, j)` in graph `b` is the textbook masked score. -/
theorem masked_entry (a0 : IVec S4x4096x4096 32) (a1 : FVec Ideal S4096x64 .f32) (a2 : FVec Ideal S64x3 .f32)
    (a3 : FVec Ideal S6x1 .f32) (b : Fin 4) (R j : Fin 4096) :
    maskedR a0 (scoresR (srcR (featR a1 a2) a3) (dstTR (featR a1 a2) a3)) (ix3 b R j)
      = scoreR (fun j : Fin 4096 => srcS a1 a2 a3 R + dstS a1 a2 a3 j)
          (fun j : Fin 4096 => IntOp.cmpi .sgt (a0 (ix3 b R j)) 0#32) j := by
  rw [maskedR_apply, scoresR_apply, src_entry, dst_entry]
  rfl

/-- The row maximum of row `(b, R)` is the textbook row maximum of the masked scores. -/
theorem rowMax_entry (a0 : IVec S4x4096x4096 32) (a1 : FVec Ideal S4096x64 .f32) (a2 : FVec Ideal S64x3 .f32)
    (a3 : FVec Ideal S6x1 .f32) (b : Fin 4) (R : Fin 4096) :
    RefTerm.rowMaxR (maskedR a0 (scoresR (srcR (featR a1 a2) a3) (dstTR (featR a1 a2) a3))) (ix2 b R)
      = Cert.Gat.rowMaxR (fun j : Fin 4096 => srcS a1 a2 a3 R + dstS a1 a2 a3 j)
          (fun j : Fin 4096 => IntOp.cmpi .sgt (a0 (ix3 b R j)) 0#32) := by
  rw [rowMaxR_apply]
  unfold Cert.Gat.rowMaxR
  refine congrArg (max _) ?_
  refine congrArg (fun g => Finset.fold max (Ideal.ofBits .f32 0xFF800000#32) g (Finset.univ : Finset (Fin 4096))) ?_
  exact funext fun k => masked_entry a0 a1 a2 a3 b R k

/-- The shifted exponential of entry `(b, R, j)` is the textbook unnormalised softmax weight. -/
theorem exp_entry (a0 : IVec S4x4096x4096 32) (a1 : FVec Ideal S4096x64 .f32) (a2 : FVec Ideal S64x3 .f32)
    (a3 : FVec Ideal S6x1 .f32) (b : Fin 4) (R j : Fin 4096) :
    expR (maskedR a0 (scoresR (srcR (featR a1 a2) a3) (dstTR (featR a1 a2) a3))) (ix3 b R j)
      = wR (fun j : Fin 4096 => srcS a1 a2 a3 R + dstS a1 a2 a3 j)
          (fun j : Fin 4096 => IntOp.cmpi .sgt (a0 (ix3 b R j)) 0#32) j := by
  rw [expR_apply, masked_entry, rowMax_entry]
  rfl

/-- THE LAYER'S ENTRY: the reference's graph-attention layer at `(b, R, f)` is the textbook entry. -/
theorem midR_apply (a0 : IVec S4x4096x4096 32) (a1 : FVec Ideal S4096x64 .f32) (a2 : FVec Ideal S64x3 .f32) (a3 : FVec Ideal S6x1 .f32)
    (b : Fin 4) (R : Fin 4096) (f : Fin 3) :
    midR a0 a1 a2 a3 (ix3 b R f) = Cert.Gat.layerR a0 a1 a2 a3 b R f := by
  unfold midR
  rw [eluR3_apply, aggR_apply]
  unfold Cert.Gat.layerR Cert.Gat.rOut
  refine congrArg Cert.Gat.eluR ?_
  refine Finset.sum_congr rfl fun j _ => ?_
  rw [attR_apply, featR_apply, exp_entry]
  refine congrArg (fun z => Ideal.div _ (Ideal.ofBits .f32 0x00000000#32 + z) * _) ?_
  exact Finset.sum_congr rfl fun k _ => exp_entry a0 a1 a2 a3 b R k

end Cert.ReferenceIdeal.RefRead

end
-- ==== Proof.LibERealCoe.lean ====
/-
  Real numbers inside the extended reals: the coercion `ℝ → EReal` commutes with finite sums and with
  the maximum of a finite family, and on a real argument inside their domains the reciprocal square
  root, the power `-1/2`, the exponential and the logarithm of the ideal instance are the coerced real
  functions.  With these a computation on finite inputs is carried out in `ℝ` once and for all.
-/
import Idealize.ShloMosaic.PureOps.Ideal

noncomputable section

namespace Cert.Lib

open Idealize.ShloMosaic

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a finite nonempty family of coerced reals is the coerced maximum. -/
theorem coe_sup' {ι : Type*} (s : Finset ι) (h : s.Nonempty) (f : ι → ℝ) :
    ((s.sup' h f : ℝ) : EReal) = s.sup' h (fun i => ((f i : ℝ) : EReal)) :=
  Finset.comp_sup'_eq_sup'_comp h (fun x : ℝ => (x : EReal)) (fun a b => EReal.coe_strictMono.monotone.map_max)

/-- The larger of two coerced reals is the coerced larger one. -/
theorem coe_max (a b : ℝ) : max ((a : ℝ) : EReal) ((b : ℝ) : EReal) = ((max a b : ℝ) : EReal) :=
  (EReal.coe_strictMono.monotone.map_max).symm

/-- `1/√d` at a positive real. -/
theorem rsqrt_coe_pos {d : ℝ} (h : 0 < d) : Ideal.rsqrt (d : EReal) = (((Real.sqrt d)⁻¹ : ℝ) : EReal) := by
  rw [Ideal.rsqrt_coe, if_neg (not_lt.mpr h.le), if_neg h.ne']

/-- `d ^ (-1/2)` at a positive real is `1/√d`. -/
theorem pow_neg_half_coe_pos {d : ℝ} (h : 0 < d) :
    Ideal.pow (d : EReal) (((-(1 / 2) : ℝ)) : EReal) = (((Real.sqrt d)⁻¹ : ℝ) : EReal) := by
  rw [Ideal.pow_coe_coe]
  congr 1
  show d ^ (-(1 / 2) : ℝ) = _
  rw [Real.rpow_neg h.le, Real.sqrt_eq_rpow]

/-- The exponential of a real. -/
theorem exp_coe' (r : ℝ) : Ideal.exp (r : EReal) = ((Real.exp r : ℝ) : EReal) := rfl

/-- The logarithm at a positive real. -/
theorem log_coe_pos {r : ℝ} (h : 0 < r) : Ideal.log (r : EReal) = ((Real.log r : ℝ) : EReal) := by
  rw [Ideal.log_coe, if_neg (not_le.mpr h)]

/-- A coerced real is not an infinity: its absolute value is below `⊤`. -/
theorem abs_coe_lt_top (r : ℝ) : ((|r| : ℝ) : EReal) < ⊤ := EReal.coe_lt_top _

end Cert.Lib

end
-- ==== Proof.GatMath.lean ====
/-
  A row softmax does not change when every exponent is shifted by the same real number.

  Fix one node row of a graph-attention layer.  Each edge `j` has a real score `x j`; the leaky ReLU (slope `s`)
  turns it into `e j`, and the mask replaces the score of an absent edge by the fill `φ`, giving `a j`.  One form of
  the layer weighs edge `j` by `exp (a j - m)` with `m` the maximum of the unmasked `e`, the other by `exp (a j - M)`
  with `M` the maximum of the masked `a`.  Both `m` and `M` are real because the row is nonempty and its scores are
  real, and for every real `t`

      exp (a j - t) / Σ_k exp (a k - t) = exp (a j) / Σ_k exp (a k),

  so the two normalised weights are the same extended real, edge by edge; the weighted sums of the features then agree
  whatever the features are.  The two spellings of the leaky ReLU (`x > 0` against `x ≥ 0`, the slope on either side)
  and of the ELU (`exp y - 1` against `1 · (exp (min y 0) - 1)`) agree at every extended real.

  The last part reads the scores off the argument arrays: products and finite sums of real entries are real.
-/
import Idealize.ShloMosaic.PureOps.Ideal
import Idealize.ShloMosaic.PureOps.Ideal.Laws
import Idealize.ShloMosaic.Lib.ValueIdx
import proofs.«121383_j73821897883807_2_alg».proof.Proof.GatSpec
import proofs.«121383_j73821897883807_2_alg».proof.Proof.LibERealCoe

noncomputable section

open scoped BigOperators

namespace Cert.Gat

open Idealize.ShloMosaic

/-! ## Comparisons, selections and the five float words -/

/-- A selection on a decided proposition is an `if`. -/
theorem select_decide {α : Type} (p : Prop) [Decidable p] (a b : α) :
    Scalar.select (BitVec.ofBool (decide p)) a b = if p then a else b := by
  unfold Scalar.select
  by_cases h : p <;> simp [h]

theorem cmp_ogt (x y : EReal) : Ideal.cmp .ogt x y = BitVec.ofBool (decide (y < x)) := rfl

theorem cmp_oge (x y : EReal) : Ideal.cmp .oge x y = BitVec.ofBool (decide (y ≤ x)) := rfl

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

/-- The slope `0.2` is a real number. -/
theorem slope_real : ∃ s : ℝ, Ideal.ofBits .f32 0x3E4CCCCD#32 = (s : EReal) :=
  show ∃ s : ℝ, Ideal.ieee 8 23 (0x3E4CCCCD#32 : BitVec 32) = (s : EReal) from
    ieee_real 8 23 (0x3E4CCCCD#32 : BitVec 32) (by decide)

/-- The fill `9e-15` is a real number. -/
theorem fill_real : ∃ s : ℝ, Ideal.ofBits .f32 0x2822212D#32 = (s : EReal) :=
  show ∃ s : ℝ, Ideal.ieee 8 23 (0x2822212D#32 : BitVec 32) = (s : EReal) from
    ieee_real 8 23 (0x2822212D#32 : BitVec 32) (by decide)

/-- The word of `-∞`. -/
theorem ofBits_neg_inf : Ideal.ofBits .f32 0xFF800000#32 = ⊥ := by
  simp [Ideal.ofBits, Ideal.ieee]

/-- The word of one. -/
theorem ofBits_one : Ideal.ofBits .f32 0x3F800000#32 = 1 := by
  rw [show (1 : EReal) = ((1 : ℝ) : EReal) by norm_cast]
  simp [Ideal.ofBits, Ideal.ieee, -EReal.coe_mul]; norm_num

/-! ## The two leaky ReLUs and the two ELUs agree everywhere -/

theorem lreluK_eq (x : EReal) :
    lreluK x = if 0 < x then x else x * Ideal.ofBits .f32 0x3E4CCCCD#32 := by
  unfold lreluK
  rw [Ideal.ofBits_zero_f32, cmp_ogt, select_decide]

theorem lreluR_eq (x : EReal) :
    lreluR x = if 0 ≤ x then x else Ideal.ofBits .f32 0x3E4CCCCD#32 * x := by
  unfold lreluR
  rw [Ideal.ofBits_zero_f32, cmp_oge, select_decide]

/-- Above zero both are the identity, at zero both are zero, below zero the slope commutes. -/
theorem lreluK_eq_lreluR (x : EReal) : lreluK x = lreluR x := by
  rw [lreluK_eq, lreluR_eq]
  rcases lt_trichotomy 0 x with h | h | h
  · rw [if_pos h, if_pos h.le]
  · subst h
    rw [if_neg (lt_irrefl _), if_pos le_rfl, zero_mul]
  · rw [if_neg (not_lt.mpr h.le), if_neg (not_le.mpr h), mul_comm]

/-- The leaky ReLU of a real is a real. -/
theorem lreluK_coe {s : ℝ} (hs : Ideal.ofBits .f32 0x3E4CCCCD#32 = (s : EReal)) (r : ℝ) :
    lreluK (r : EReal) = ((if 0 < r then r else r * s : ℝ) : EReal) := by
  rw [lreluK_eq, hs]
  by_cases h : 0 < r
  · rw [if_pos h, if_pos (EReal.coe_pos.mpr h)]
  · rw [if_neg h, if_neg (fun h' => h (EReal.coe_pos.mp h')), EReal.coe_mul]

/-- Below or at zero the clamp returns the argument, and the factor one disappears. -/
theorem eluK_eq_eluR (y : EReal) : eluK y = eluR y := by
  unfold eluK eluR
  rw [Ideal.ofBits_zero_f32, ofBits_one, cmp_ogt]
  simp only [select_decide]
  by_cases h : 0 < y
  · rw [if_pos h, if_pos h]
  · rw [if_neg h, if_neg h, if_neg h, one_mul]

/-! ## Real maxima, real weights, and the shift -/

/-- The running maximum from `-∞` of a nonempty family of reals is a real. -/
theorem fold_max_real {ι : Type} (g : ι → ℝ) {s : Finset ι} (hs : s.Nonempty) :
    ∃ m : ℝ, s.fold max (⊥ : EReal) (fun k => ((g k : ℝ) : EReal)) = (m : EReal) := by
  induction hs using Finset.Nonempty.cons_induction with
  | singleton a => exact ⟨g a, by rw [Finset.fold_singleton, max_eq_left bot_le]⟩
  | cons a s ha hs ih =>
    obtain ⟨m, hm⟩ := ih
    exact ⟨max (g a) m, by rw [Finset.fold_cons, hm, Cert.Lib.coe_max]⟩

/-- The quotient of two reals, the divisor not zero. -/
theorem div_coe_coe (p q : ℝ) (hq : q ≠ 0) : Ideal.div (p : EReal) (q : EReal) = ((p / q : ℝ) : EReal) := by
  rw [Ideal.div_coe hq, ← EReal.coe_mul, mul_one_div]

/-- A softmax weight does not depend on the common shift of the exponents. -/
theorem softmax_shift {ι : Type} [Fintype ι] (a : ι → ℝ) (t : ℝ) (j : ι) :
    Real.exp (a j - t) / ∑ k, Real.exp (a k - t) = Real.exp (a j) / ∑ k, Real.exp (a k) := by
  simp only [Real.exp_sub]
  rw [← Finset.sum_div, div_div_div_cancel_right₀ (Real.exp_ne_zero t)]

/-- The normalised weight of edge `j` when every edge `k` weighs `exp (a k - t)`, `z` a zero added to the sum. -/
theorem att_coe {ι : Type} [Fintype ι] [Nonempty ι] (w : ι → EReal) (a : ι → ℝ) (t : ℝ) (z : EReal) (hz : z = 0)
    (hw : ∀ k, w k = ((Real.exp (a k - t) : ℝ) : EReal)) (j : ι) :
    Ideal.div (w j) (z + ∑ k, w k) = ((Real.exp (a j) / ∑ k, Real.exp (a k) : ℝ) : EReal) := by
  have hpos : (0 : ℝ) < ∑ k, Real.exp (a k - t) :=
    Finset.sum_pos (fun k _ => Real.exp_pos _) Finset.univ_nonempty
  simp only [hw]
  rw [hz, zero_add, Cert.Lib.coe_sum, div_coe_coe _ _ hpos.ne', softmax_shift]

variable {ι : Type} [Fintype ι]

/-- The kernel's weight of edge `j` from real scores `e`, a real fill `φ` and a real shift `m`. -/
theorem wK_coe (x : ι → EReal) (c : ι → BitVec 1) (e : ι → ℝ) (φ m : ℝ)
    (he : ∀ k, lreluK (x k) = ((e k : ℝ) : EReal)) (hφ : Ideal.ofBits .f32 0x2822212D#32 = (φ : EReal))
    (hm : rowMaxK x = (m : EReal)) (j : ι) :
    wK x c j = ((Real.exp ((if c j = 1 then e j else φ) - m) : ℝ) : EReal) := by
  unfold wK Scalar.select
  rw [he, hφ, hm]
  split_ifs <;> rw [← EReal.coe_sub, Ideal.exp_coe]

/-- The masked score of edge `j` from real scores `e` and a real fill `φ`. -/
theorem scoreR_coe (x : ι → EReal) (c : ι → BitVec 1) (e : ι → ℝ) (φ : ℝ)
    (he : ∀ k, lreluR (x k) = ((e k : ℝ) : EReal)) (hφ : Ideal.ofBits .f32 0x2822212D#32 = (φ : EReal)) (j : ι) :
    scoreR x c j = (((if c j = 1 then e j else φ) : ℝ) : EReal) := by
  unfold scoreR Scalar.select
  rw [he, hφ]
  split_ifs <;> rfl

/-- The reference's weight of edge `j` from real masked scores `a` and a real shift `M`. -/
theorem wR_coe (x : ι → EReal) (c : ι → BitVec 1) (a : ι → ℝ) (M : ℝ)
    (ha : ∀ k, scoreR x c k = ((a k : ℝ) : EReal)) (hM : rowMaxR x c = (M : EReal)) (j : ι) :
    wR x c j = ((Real.exp (a j - M) : ℝ) : EReal) := by
  unfold wR
  rw [ha, hM, ← EReal.coe_sub, Ideal.exp_coe]

/-- One entry of the layer: the two forms agree on real scores, whatever the features. -/
theorem kOut_eq_rOut {ι : Type} [Fintype ι] [Nonempty ι] (x : ι → EReal) (c : ι → BitVec 1) (hc : ι → EReal)
    (hx : ∀ j, ∃ r : ℝ, x j = (r : EReal)) :
    kOut x c hc = rOut x c hc := by
  obtain ⟨s, hs⟩ := slope_real
  obtain ⟨φ, hφ⟩ := fill_real
  choose xr hxr using hx
  have heK : ∀ k, lreluK (x k) = (((if 0 < xr k then xr k else xr k * s) : ℝ) : EReal) := fun k => by
    rw [hxr k]; exact lreluK_coe hs _
  have heR : ∀ k, lreluR (x k) = (((if 0 < xr k then xr k else xr k * s) : ℝ) : EReal) := fun k => by
    rw [← lreluK_eq_lreluR]; exact heK k
  obtain ⟨m, hm⟩ : ∃ m : ℝ, rowMaxK x = (m : EReal) := by
    unfold rowMaxK
    rw [ofBits_neg_inf]
    simp only [heK]
    exact fold_max_real _ Finset.univ_nonempty
  have ha := scoreR_coe x c _ φ heR hφ
  obtain ⟨M, hM⟩ : ∃ M : ℝ, rowMaxR x c = (M : EReal) := by
    unfold rowMaxR
    rw [ofBits_neg_inf, max_eq_right bot_le]
    simp only [ha]
    exact fold_max_real _ Finset.univ_nonempty
  have hK := att_coe (fun k => wK x c k) _ m 0 rfl (wK_coe x c _ φ m heK hφ hm)
  have hR := att_coe (fun k => wR x c k) _ M (Ideal.ofBits .f32 0x00000000#32) Ideal.ofBits_zero_f32
    (wR_coe x c _ M ha hM)
  unfold kOut rOut
  rw [eluK_eq_eluR]
  congr 1
  refine Finset.sum_congr rfl (fun j _ => ?_)
  have h1 := hK j
  have h2 := hR j
  rw [zero_add] at h1
  rw [h1, h2]

/-! ## The scores read off the argument arrays are real -/

/-- A finite sum of products of reals is a real. -/
theorem sum_mul_real {κ : Type} [Fintype κ] (u v : κ → EReal) (hu : ∀ k, ∃ r : ℝ, u k = (r : EReal))
    (hv : ∀ k, ∃ r : ℝ, v k = (r : EReal)) : ∃ r : ℝ, ∑ k, u k * v k = (r : EReal) := by
  choose ur hur using hu
  choose vr hvr using hv
  refine ⟨∑ k, ur k * vr k, ?_⟩
  simp only [hur, hvr, ← EReal.coe_mul]
  exact Cert.Lib.coe_sum _ _

open Idealize.ShloMosaic.ValueIdx

theorem feat_real (a1 : (⟨2, ![4096, 64]⟩ : Shape).Idx → EReal) (a2 : (⟨2, ![64, 3]⟩ : Shape).Idx → EReal)
    (h1 : ∀ i, ∃ r : ℝ, a1 i = (r : EReal)) (h2 : ∀ i, ∃ r : ℝ, a2 i = (r : EReal)) (i : Fin 4096) (f : Fin 3) :
    ∃ r : ℝ, feat a1 a2 i f = (r : EReal) := by
  unfold feat
  exact sum_mul_real _ _ (fun k => h1 (ix2 i k)) (fun k => h2 (ix2 k f))

theorem srcS_real (a1 : (⟨2, ![4096, 64]⟩ : Shape).Idx → EReal) (a2 : (⟨2, ![64, 3]⟩ : Shape).Idx → EReal)
    (a3 : (⟨2, ![6, 1]⟩ : Shape).Idx → EReal)
    (h1 : ∀ i, ∃ r : ℝ, a1 i = (r : EReal)) (h2 : ∀ i, ∃ r : ℝ, a2 i = (r : EReal)) (h3 : ∀ i, ∃ r : ℝ, a3 i = (r : EReal))
    (i : Fin 4096) : ∃ r : ℝ, srcS a1 a2 a3 i = (r : EReal) := by
  unfold srcS
  exact sum_mul_real _ _ (fun k => feat_real a1 a2 h1 h2 i k) (fun k => h3 _)

theorem dstS_real (a1 : (⟨2, ![4096, 64]⟩ : Shape).Idx → EReal) (a2 : (⟨2, ![64, 3]⟩ : Shape).Idx → EReal)
    (a3 : (⟨2, ![6, 1]⟩ : Shape).Idx → EReal)
    (h1 : ∀ i, ∃ r : ℝ, a1 i = (r : EReal)) (h2 : ∀ i, ∃ r : ℝ, a2 i = (r : EReal)) (h3 : ∀ i, ∃ r : ℝ, a3 i = (r : EReal))
    (j : Fin 4096) : ∃ r : ℝ, dstS a1 a2 a3 j = (r : EReal) := by
  unfold dstS
  exact sum_mul_real _ _ (fun k => feat_real a1 a2 h1 h2 j k) (fun k => h3 _)

theorem score_real (a1 : (⟨2, ![4096, 64]⟩ : Shape).Idx → EReal) (a2 : (⟨2, ![64, 3]⟩ : Shape).Idx → EReal) (a3 : (⟨2, ![6, 1]⟩ : Shape).Idx → EReal)
    (h1 : ∀ i, ∃ r : ℝ, a1 i = (r : EReal)) (h2 : ∀ i, ∃ r : ℝ, a2 i = (r : EReal)) (h3 : ∀ i, ∃ r : ℝ, a3 i = (r : EReal)) (R j : Fin 4096) :
    ∃ r : ℝ, srcS a1 a2 a3 R + dstS a1 a2 a3 j = (r : EReal) := by
  obtain ⟨p, hp⟩ := srcS_real a1 a2 a3 h1 h2 h3 R
  obtain ⟨q, hq⟩ := dstS_real a1 a2 a3 h1 h2 h3 j
  exact ⟨p + q, by rw [hp, hq, EReal.coe_add]⟩

/-- Every entry of the layer: the two forms agree on real argument arrays. -/
theorem layerK_eq_layerR (a0 : (⟨3, ![4, 4096, 4096]⟩ : Shape).Idx → BitVec 32) (a1 : (⟨2, ![4096, 64]⟩ : Shape).Idx → EReal)
    (a2 : (⟨2, ![64, 3]⟩ : Shape).Idx → EReal) (a3 : (⟨2, ![6, 1]⟩ : Shape).Idx → EReal)
    (h1 : ∀ i, ∃ r : ℝ, a1 i = (r : EReal)) (h2 : ∀ i, ∃ r : ℝ, a2 i = (r : EReal)) (h3 : ∀ i, ∃ r : ℝ, a3 i = (r : EReal))
    (b : Fin 4) (R : Fin 4096) (f : Fin 3) : layerK a0 a1 a2 a3 b R f = layerR a0 a1 a2 a3 b R f := by
  haveI : Nonempty (Fin 4096) := ⟨⟨0, by decide⟩⟩
  unfold layerK layerR
  exact kOut_eq_rOut _ _ _ (fun j => score_real a1 a2 a3 h1 h2 h3 R j)

end Cert.Gat

end
-- ==== Proof.lean ====
/-
  A graph-attention layer followed by a linear head: the Pallas kernel against its jnp reference, over the extended reals.

  Both programs compute the node features `h = ent_emb · W`, the source and destination halves of the pair scores, and for
  every graph `b` and node row `R` the entry `ELU(Σ_j att_j · h[j, f])`, where `att` is the softmax over `j` of the leaky-ReLU
  scores `src_R + dst_j` with absent edges filled by the constant 9e-15; both then apply the same linear head.

  The kernel walks a grid of 16 row tiles by 4 graphs. At a tile's first graph it stores the tile's row maxima `m` of the
  UNMASKED scores and the exponentials `exp(score - m)` in scratch buffers, and reuses them for the tile's other graphs: an
  edge weighs `exp(score - m)`, a non-edge `exp(9e-15 - m)`. The reference masks first and shifts by the maximum of the MASKED
  scores. A softmax does not change when all its exponents are shifted by the same real number, and the inputs are finite, so
  every score, maximum and weight is a real number and the two attention rows are equal; the ELU is written `exp y - 1` on one
  side and `1 · expm1 y` on the other, the leaky ReLU with `>` on one side and `≥` on the other: equal functions.

  The pieces: the kernel's run read as a value of its arguments (Proof/KerRun.lean, over the generated frame run: what each
  grid point leaves in the scratch and output buffers, by induction along the grid, then the output blocks tiling the output
  array); the reference's run (Proof/RefRun.lean) and its layer read at an index (Proof/RefRead.lean); the mathematics
  (Proof/GatMath.lean); finiteness of the three arguments the layer reads, out of the precondition (Proof/KerPre.lean).
-/
import proofs.«121383_j73821897883807_2_alg».proof.Defs
import proofs.«121383_j73821897883807_2_alg».proof.Proof.Gen.Kernel
import proofs.«121383_j73821897883807_2_alg».proof.Proof.Gen.Kernel.Frame
import proofs.«121383_j73821897883807_2_alg».proof.Proof.Gen.KernelIdeal
import proofs.«121383_j73821897883807_2_alg».proof.Proof.Gen.KernelIdeal.Frame
import proofs.«121383_j73821897883807_2_alg».proof.Proof.Gen.ReferenceIdeal
import proofs.«121383_j73821897883807_2_alg».proof.Proof.Gen.Pre_finite_inputs
import proofs.«121383_j73821897883807_2_alg».proof.Proof.KerRun
import proofs.«121383_j73821897883807_2_alg».proof.Proof.RefRun
import proofs.«121383_j73821897883807_2_alg».proof.Proof.RefRead
import proofs.«121383_j73821897883807_2_alg».proof.Proof.GatMath

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote nothing. -/
theorem preserves : Cert.preserves_Kernel_KernelIdeal := trivial

/-- The reference's layer is the kernel's, entry by entry, on finite arguments. -/
theorem layer_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.RefTerm.midR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      = Cert.KernelIdeal.KerRun.layerArgs m c := by
  obtain ⟨h1, h2, h3⟩ := Cert.Pre_finite_inputs.Real.real_of_pre _ _ _ _ _ _ (hpre c)
  funext i
  obtain ⟨b, R, f, rfl⟩ : ∃ (b : Fin 4) (R : Fin 4096) (f : Fin 3), i = ix3 b R f := ⟨i 0, i 1, i 2, eq_ix3 i⟩
  rw [Cert.ReferenceIdeal.RefRead.midR_apply]
  exact (Cert.Gat.layerK_eq_layerR _ _ _ _ h1 h2 h3 b R f).symm

/-- Both programs end with the linear head of the same layer. -/
theorem algebraic : Cert.algebraic_KernelIdeal_ReferenceIdeal := by
  intro m ρ m' ρ' hpre hagree
  refine ⟨fun c => Cert.KernelIdeal.KerTerm.headK (F := Ideal) (Cert.KernelIdeal.KerRun.layerArgs m c) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KerRun.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1, (hagree c).2.2.2.2.2,
    layer_eq m hpre c]
  exact (Cert.KernelIdeal.KerHost.headK_eq_headR _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
